-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x3x3 : Shape := ⟨3, ![8, 3, 3]⟩
abbrev S8x3 : Shape := ⟨2, ![8, 3]⟩
abbrev S8x3x1 : Shape := ⟨3, ![8, 3, 1]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x3x3 : S_.BroadcastsInDim S8x3x3 (![] : Fin 0 → Fin S8x3x3.rank)
  reducesTo_S8x3x3_S_d0_1_2 : S8x3x3.ReducesTo [0, 1, 2] S_
  bcast_S_S8x3 : S_.BroadcastsInDim S8x3 (![] : Fin 0 → Fin S8x3.rank)
  reducesTo_S8x3_S_d0_1 : S8x3.ReducesTo [0, 1] S_
  bcast_S_S8x3x1 : S_.BroadcastsInDim S8x3x1 (![] : Fin 0 → Fin S8x3x1.rank)
  reducesTo_S8x3x1_S_d0_1_2 : S8x3x1.ReducesTo [0, 1, 2] S_

variable [Facts]

def fn_part2 {F : FTy → Type} [FloatOps F] (main_arg7 : FVec F S8x3 .f32) (main_v33 : IVec S_ 1) : IVec S_ 1 :=
  let main_v34 : FVec F S8x3 .f32 := Host.absf main_arg7
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  main_v38

def fn_part1 {F : FTy → Type} [FloatOps F] (main_arg4 : FVec F S8x3x1 .f32) (main_arg5 : FVec F S8x3x3 .f32) (main_arg6 : FVec F S8x3 .f32) (main_arg7 : FVec F S8x3 .f32) (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  let main_v19 : FVec F S8x3x1 .f32 := Host.absf main_arg4
  let main_cst_6 : FVec F S_ .f32 := constant S_ .f32 0x7F800000#32
  let main_v20 : FVec F S8x3x1 .f32 := broadcastInDim S8x3x1 ![] bcast_S_S8x3x1 main_cst_6
  let main_v21 : IVec S8x3x1 1 := cmpf .olt main_v19 main_v20
  let main_c_7 : IVec S_ 1 := constantI S_ 1 1#1
  let main_v22 : IVec S_ 1 := (fun x v => Host.reduce IntOp.andi x v reducesTo_S8x3x1_S_d0_1_2 h_S_) main_v21 main_c_7
  let main_v23 : IVec S_ 1 := andi main_v18 main_v22
  let main_v24 : FVec F S8x3x3 .f32 := Host.absf main_arg5
  let main_cst_8 : FVec F S_ .f32 := constant S_ .f32 0x7F800000#32
  let main_v25 : FVec F S8x3x3 .f32 := broadcastInDim S8x3x3 ![] bcast_S_S8x3x3 main_cst_8
  let main_v26 : IVec S8x3x3 1 := cmpf .olt main_v24 main_v25
  let main_c_9 : IVec S_ 1 := constantI S_ 1 1#1
  let main_v27 : IVec S_ 1 := (fun x v => Host.reduce IntOp.andi x v reducesTo_S8x3x3_S_d0_1_2 h_S_) main_v26 main_c_9
  let main_v28 : IVec S_ 1 := andi main_v23 main_v27
  let main_v29 : FVec F S8x3 .f32 := Host.absf main_arg6
  let main_cst_10 : FVec F S_ .f32 := constant S_ .f32 0x7F800000#32
  let main_v30 : FVec F S8x3 .f32 := broadcastInDim S8x3 ![] bcast_S_S8x3 main_cst_10
  let main_v31 : IVec S8x3 1 := cmpf .olt main_v29 main_v30
  let main_c_11 : IVec S_ 1 := constantI S_ 1 1#1
  let main_v32 : IVec S_ 1 := (fun x v => Host.reduce IntOp.andi x v reducesTo_S8x3_S_d0_1 h_S_) main_v31 main_c_11
  let main_v33 : IVec S_ 1 := andi main_v28 main_v32
  fn_part2 (F := F) main_arg7 main_v33

def fn {F : FTy → Type} [FloatOps F] (main_arg0 : FVec F S8x4096x3 .f32) (main_arg1 : FVec F S8x4096x3 .f32) (main_arg2 : FVec F S8x3x3 .f32) (main_arg3 : FVec F S8x3 .f32) (main_arg4 : FVec F S8x3x1 .f32) (main_arg5 : FVec F S8x3x3 .f32) (main_arg6 : FVec F S8x3 .f32) (main_arg7 : FVec F S8x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x3x3 .f32 := Host.absf main_arg2
  let main_cst_2 : FVec F S_ .f32 := constant S_ .f32 0x7F800000#32
  let main_v10 : FVec F S8x3x3 .f32 := broadcastInDim S8x3x3 ![] bcast_S_S8x3x3 main_cst_2
  let main_v11 : IVec S8x3x3 1 := cmpf .olt main_v9 main_v10
  let main_c_3 : IVec S_ 1 := constantI S_ 1 1#1
  let main_v12 : IVec S_ 1 := (fun x v => Host.reduce IntOp.andi x v reducesTo_S8x3x3_S_d0_1_2 h_S_) main_v11 main_c_3
  let main_v13 : IVec S_ 1 := andi main_v8 main_v12
  let main_v14 : FVec F S8x3 .f32 := Host.absf main_arg3
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_arg4 main_arg5 main_arg6 main_arg7 main_v13 main_v16
-- ==== Kernel.lean ====
abbrev S8x4096x3 : Shape := ⟨3, ![8, 4096, 3]⟩
abbrev S8x3x3 : Shape := ⟨3, ![8, 3, 3]⟩
abbrev S8x3 : Shape := ⟨2, ![8, 3]⟩
abbrev S8x3x1 : Shape := ⟨3, ![8, 3, 1]⟩
abbrev S3x3 : Shape := ⟨2, ![3, 3]⟩
abbrev S_ : Shape := ⟨0, ![]⟩
abbrev S1x3x3 : Shape := ⟨3, ![1, 3, 3]⟩
abbrev S8x4096 : Shape := ⟨2, ![8, 4096]⟩
abbrev S8x512x3 : Shape := ⟨3, ![8, 512, 3]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S8 : Shape := ⟨1, ![8]⟩

abbrev nBuf : Space → Nat
  | .hbm => 55
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x3, .f32⟩
  | .hbm, ⟨3, _⟩ => ⟨S8x3, .f32⟩
  | .hbm, ⟨4, _⟩ => ⟨S8x3x1, .f32⟩
  | .hbm, ⟨5, _⟩ => ⟨S8x3x3, .f32⟩
  | .hbm, ⟨6, _⟩ => ⟨S8x3, .f32⟩
  | .hbm, ⟨7, _⟩ => ⟨S8x3, .f32⟩
  | .hbm, ⟨8, _⟩ => ⟨S8x3, .f32⟩
  | .hbm, ⟨9, _⟩ => ⟨S3x3, .i32⟩
  | .hbm, ⟨10, _⟩ => ⟨S3x3, .i32⟩
  | .hbm, ⟨11, _⟩ => ⟨S_, .i32⟩
  | .hbm, ⟨12, _⟩ => ⟨S3x3, .i32⟩
  | .hbm, ⟨13, _⟩ => ⟨S3x3, .i32⟩
  | .hbm, ⟨14, _⟩ => ⟨S3x3, .i1⟩
  | .hbm, ⟨15, _⟩ => ⟨S3x3, .f32⟩
  | .hbm, ⟨16, _⟩ => ⟨S8x3x3, .f32⟩
  | .hbm, ⟨17, _⟩ => ⟨S1x3x3, .f32⟩
  | .hbm, ⟨18, _⟩ => ⟨S8x3x3, .f32⟩
  | .hbm, ⟨19, _⟩ => ⟨S8x3x3, .f32⟩
  | .hbm, ⟨20, _⟩ => ⟨S8x3x3, .f32⟩
  | .hbm, ⟨21, _⟩ => ⟨S_, .f32⟩
  | .hbm, ⟨22, _⟩ => ⟨S_, .f32⟩
  | .hbm, ⟨23, _⟩ => ⟨S8x3, .f32⟩
  | .hbm, ⟨24, _⟩ => ⟨S8x3, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x3, .f32⟩
  | .hbm, ⟨29, _⟩ => ⟨S8x3, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x4096, .f32⟩
  | .hbm, ⟨34, _⟩ => ⟨S8x4096, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512x3, .f32⟩
  | .local _ .vmem, ⟨8, _⟩ => ⟨S8x512x3, .f32⟩
  | .local _ .vmem, ⟨9, _⟩ => ⟨S8x512x3, .f32⟩
  | .local _ .vmem, ⟨10, _⟩ => ⟨S8x512x3, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8x3x1_S8x3 : S8x3x1.ShapeCasts S8x3
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S8x3x3_0_1_2 : S1x3x3.BroadcastsInDim S8x3x3 (![0, 1, 2] : Fin 3 → Fin S8x3x3.rank)
  reducesTo_S8x3x3_S_d0_1_2 : S8x3x3.ReducesTo [0, 1, 2] S_
  h_S_ : 0 < S_.numel
  reducesTo_S8x3_S_d0_1 : S8x3.ReducesTo [0, 1] S_
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  bitsLt_bf16_f32 : FTy.bits .bf16 < FTy.bits .f32
  reduces_S8x512x3_S8x512 : S8x512x3.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reducesTo_S8x4096_S8_d1 : S8x4096.ReducesTo [1] S8
  bcast_S_S8 : S_.BroadcastsInDim S8 (![] : Fin 0 → Fin S8.rank)
  reducesTo_S8_S_d0 : S8.ReducesTo [0] S_
  dot_S8x3x3_S8x3x3_S8x3x3_2_2_1_1_0_0_wf : DotDims.WF S8x3x3 S8x3x3 S8x3x3 [2] [2] [1] [1] [0] [0]
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x3x3_S8x3x3_S8x3x3_2_2_1_1_0_0 : DotDims S8x3x3 S8x3x3 S8x3x3 where
  lhsContracting := [2]
  rhsContracting := [2]
  lhsNonContracting := [1]
  rhsNonContracting := [1]
  lhsBatch := [0]
  rhsBatch := [0]
  wf := dot_S8x3x3_S8x3x3_S8x3x3_2_2_1_1_0_0_wf
def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x3x3 : Shape := ⟨3, ![8, 3, 3]⟩
abbrev S8x3 : Shape := ⟨2, ![8, 3]⟩
abbrev S8x3x1 : Shape := ⟨3, ![8, 3, 1]⟩
abbrev S3x3 : Shape := ⟨2, ![3, 3]⟩
abbrev S_ : Shape := ⟨0, ![]⟩
abbrev S1x3x3 : Shape := ⟨3, ![1, 3, 3]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x3, .f32⟩
  | .hbm, ⟨3, _⟩ => ⟨S8x3, .f32⟩
  | .hbm, ⟨4, _⟩ => ⟨S8x3x1, .f32⟩
  | .hbm, ⟨5, _⟩ => ⟨S8x3x3, .f32⟩
  | .hbm, ⟨6, _⟩ => ⟨S8x3, .f32⟩
  | .hbm, ⟨7, _⟩ => ⟨S8x3, .f32⟩
  | .hbm, ⟨8, _⟩ => ⟨S8x3, .f32⟩
  | .hbm, ⟨9, _⟩ => ⟨S3x3, .i32⟩
  | .hbm, ⟨10, _⟩ => ⟨S3x3, .i32⟩
  | .hbm, ⟨11, _⟩ => ⟨S_, .i32⟩
  | .hbm, ⟨12, _⟩ => ⟨S3x3, .i32⟩
  | .hbm, ⟨13, _⟩ => ⟨S3x3, .i32⟩
  | .hbm, ⟨14, _⟩ => ⟨S3x3, .i1⟩
  | .hbm, ⟨15, _⟩ => ⟨S3x3, .f32⟩
  | .hbm, ⟨16, _⟩ => ⟨S8x3x3, .f32⟩
  | .hbm, ⟨17, _⟩ => ⟨S1x3x3, .f32⟩
  | .hbm, ⟨18, _⟩ => ⟨S8x3x3, .f32⟩
  | .hbm, ⟨19, _⟩ => ⟨S8x3x3, .f32⟩
  | .hbm, ⟨20, _⟩ => ⟨S8x3x3, .f32⟩
  | .hbm, ⟨21, _⟩ => ⟨S_, .f32⟩
  | .hbm, ⟨22, _⟩ => ⟨S_, .f32⟩
  | .hbm, ⟨23, _⟩ => ⟨S8x3, .f32⟩
  | .hbm, ⟨24, _⟩ => ⟨S8x3, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x3, .f32⟩
  | .hbm, ⟨29, _⟩ => ⟨S8x3, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x4096x3, .f32⟩
  | .hbm, ⟨34, _⟩ => ⟨S_, .f32⟩
  | .hbm, ⟨35, _⟩ => ⟨S8x4096, .f32⟩
  | .hbm, ⟨36, _⟩ => ⟨S8x4096x3, .f32⟩
  | .hbm, ⟨37, _⟩ => ⟨S_, .f32⟩
  | .hbm, ⟨38, _⟩ => ⟨S8x4096, .f32⟩
  | .hbm, ⟨39, _⟩ => ⟨S8x4096x4096, .f32⟩
  | .hbm, ⟨40, _⟩ => ⟨S8x4096x1, .f32⟩
  | .hbm, ⟨41, _⟩ => ⟨S8x1x4096, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  shapeCasts_S8x3x1_S8x3 : S8x3x1.ShapeCasts S8x3
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S8x3x3_0_1_2 : S1x3x3.BroadcastsInDim S8x3x3 (![0, 1, 2] : Fin 3 → Fin S8x3x3.rank)
  reducesTo_S8x3x3_S_d0_1_2 : S8x3x3.ReducesTo [0, 1, 2] S_
  h_S_ : 0 < S_.numel
  reducesTo_S8x3_S_d0_1 : S8x3.ReducesTo [0, 1] S_
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x3x3_S8x3x3_S8x3x3_2_2_1_1_0_0_wf : DotDims.WF S8x3x3 S8x3x3 S8x3x3 [2] [2] [1] [1] [0] [0]
  dot_S8x4096x3_S8x4096x3_S8x4096x4096_2_2_1_1_0_0_wf : DotDims.WF S8x4096x3 S8x4096x3 S8x4096x4096 [2] [2] [1] [1] [0] [0]

variable [Facts₀]

def dot_S8x3x3_S8x3x3_S8x3x3_2_2_1_1_0_0 : DotDims S8x3x3 S8x3x3 S8x3x3 where
  lhsContracting := [2]
  rhsContracting := [2]
  lhsNonContracting := [1]
  rhsNonContracting := [1]
  lhsBatch := [0]
  rhsBatch := [0]
  wf := dot_S8x3x3_S8x3x3_S8x3x3_2_2_1_1_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KReg0Shared.lean ====
/-
  The first nearest-neighbour call (grid 8 × 8, point t = 8·n + m: row tile n, column tile m), what its three control
  cases share. The body keeps a running minimum in a scratch buffer: at m = 0 it first fills the scratch with +∞; at
  every point it replaces the scratch by its minimum with the tile's row minima; at m = 7 it copies the scratch to the
  output block. So a point is in case A (m = 0), B (0 < m < 7) or C (m = 7); the output block is untouched, and not
  written back, in cases A and B.
-/
import proofs.«170943_j75333726372154_1_alg».proof.Proof.Gen.Kernel.Launch
import proofs.«170943_j75333726372154_1_alg».proof.Proof.Gen.Kernel.Skeleton
import proofs.«170943_j75333726372154_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- "This is the first column tile": the condition of the body's first conditional. -/
abbrev cond0_0 (i : grid0.Coords) : Prop := (Scalar.cmpi .ne (Scalar.extui (Scalar.cmpi .eq (BitVec.ofNat 32 (i 1).val) 0#32)) 0#32) = 1#1
/-- It holds exactly at the points with m = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile": the condition of the body's second conditional. -/
abbrev cond0_1 (i : grid0.Coords) : Prop := k0_cond2 i = 1#1
/-- It holds exactly at the points with m = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- In cases A and B the body stores nothing into the output block, and the block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- In case C it stores the whole block. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S8x512 .f32 := (Memref.whole cc0_stg2_0 : Memref sig .tc .vmem S8x512 .f32).view
abbrev ms0_0 (t : Fin cfg0.N) : Memref sig .tc .vmem S8x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
/-- The scratch buffer holding the running minimum, as a memref and as a view. -/
abbrev scM0_0 : Memref sig .tc .vmem S8x512 .f32 := Memref.whole cc0_scratch0
abbrev VS0_0 : View sig .tc .vmem S8x512 .f32 := scM0_0.view

/-- The scoped buffers of the other call, each whole at some contents: they ride through this call untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant (every scoped buffer the pipeline does not stage at some contents, the generator register at
    some state) with this call's scratch split off as a memref owned at some contents. -/
theorem PhiA0_split (c : Dev nD) :
    (Pipeline.ΦA spec0 c : sProp 𝕄) ⊢ iprop((∃ d, owns (c : Thread nD τ) scM0_0 fullShare d) ∗ others0 (F := F) c ∗ (∃ r, prngReg c r)) := by
  unfold Pipeline.ΦA others0; rw [scopedRest0_eq]
  iintro ⟨⟨HA, H1, H2, H3, H4, H5, H6, H7⟩, Hg⟩
  isplitl [HA]
  · icases HA with ⟨%f, HA⟩; iexists f; rw [owns_whole]; iexact HA
  isplitr [Hg]
  swap
  · iexact Hg
  isplitl [H1]; · iexact H1
  isplitl [H2]; · iexact H2
  isplitl [H3]; · iexact H3
  isplitl [H4]; · iexact H4
  isplitl [H5]; · iexact H5
  isplitl [H6]; · iexact H6
  iexact H7

/-- And put back. -/
theorem PhiA0_join (c : Dev nD) :
    iprop((∃ d, owns (c : Thread nD τ) scM0_0 fullShare d) ∗ others0 (F := F) c ∗ (∃ r, prngReg c r)) ⊢ (Pipeline.ΦA spec0 c : sProp 𝕄) := by
  unfold Pipeline.ΦA others0; rw [scopedRest0_eq]
  iintro ⟨HA0, ⟨H1, H2, H3, H4, H5, H6, H7⟩, Hg⟩
  isplitr [Hg]
  swap
  · iexact Hg
  ihave HA := (show iprop(∃ d, owns (c : Thread nD τ) scM0_0 fullShare d) ⊢ (iprop(∃ f : Buf (Elt F) ((c : Thread nD τ).loc cc0_scratch0), ((c : Thread nD τ).loc cc0_scratch0) ↦{fullShare} f) : sProp 𝕄) from by
    simp only [owns_whole]; exact BI.Entails.refl _) $$ HA0
  isplitl [HA]; · iexact HA
  isplitl [H1]; · iexact H1
  isplitl [H2]; · iexact H2
  isplitl [H3]; · iexact H3
  isplitl [H4]; · iexact H4
  isplitl [H5]; · iexact H5
  isplitl [H6]; · iexact H6
  iexact H7

end Cert.Kernel.Hand

end
-- ==== Proof.KReg0RunA.lean ====
/-
  The body of the first nearest-neighbour call run at a point of case A: the first column tile (the scratch is first filled with +∞).
  The stores each buffer ends with are found by running the body; they are this definition's witness.
-/
import proofs.«170943_j75333726372154_1_alg».proof.Proof.KReg0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1`, the body runs to its end, the inputs as they were, the output block untouched, the scratch with the pieces `LS0` written. -/
noncomputable def kernelRun0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_half_kernel i arg2 harg2 arg3 harg3 arg4 harg4 arg5 harg5) K } := by
  refine ⟨[], ?_, fun xi2 E K => ?run⟩
  case run =>
    simp only [cc0__chamfer_half_kernel_eq_skeleton]; unfold cc0__chamfer_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KReg0RunB.lean ====
/-
  The body of the first nearest-neighbour call run at a point of case B: a middle column tile (the scratch holds the running minimum of the tiles before).
  The stores each buffer ends with are found by running the body; they are this definition's witness.
-/
import proofs.«170943_j75333726372154_1_alg».proof.Proof.KReg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block untouched, the scratch with the pieces `LS0` written. -/
noncomputable def kernelRun0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_half_kernel i arg2 harg2 arg3 harg3 arg4 harg4 arg5 harg5) K } := by
  refine ⟨[], ?_, fun xi2 E K => ?run⟩
  case run =>
    simp only [cc0__chamfer_half_kernel_eq_skeleton]; unfold cc0__chamfer_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KReg0RunC.lean ====
/-
  The body of the first nearest-neighbour call run at a point of case C: the last column tile (after the update the scratch is copied to the output block).
  The stores each buffer ends with are found by running the body; they are this definition's witness.
-/
import proofs.«170943_j75333726372154_1_alg».proof.Proof.KReg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block with the pieces `L2` written, the scratch with the pieces `LS0` written. -/
noncomputable def kernelRun0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_half_kernel i arg2 harg2 arg3 harg3 arg4 harg4 arg5 harg5) K } := by
  refine ⟨?_, ?_, fun E K => ?run⟩
  case run =>
    simp only [cc0__chamfer_half_kernel_eq_skeleton]; unfold cc0__chamfer_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KReg0Body.lean ====
/-
  The first nearest-neighbour call, point by point: what the output block and the scratch hold after the body
  at each grid point (the scratch carries the running minimum from one column tile to the next), the invariant that
  says so between points, the pipeline's proof data, and the body obligation at a generic point.
-/
import proofs.«170943_j75333726372154_1_alg».proof.Proof.KReg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nothing consults (the block is neither written back
    nor read at the next point). -/
def out0_A_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) : Vec F S8x512 .f32 :=
  VO0_2.read (Elt F) (VO0_2.writes (Elt F) VO0_2.junk (kernelRun0_A c i arg2 harg2 arg3 harg3 arg4 harg4 arg5 harg5 hc0 hc1 x0 x1).1)

/-- Case A's stores into the scratch cover it. -/
theorem scover0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) (y : S8x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x512.size (by sl_kernel_rfl) y

/-- What case A leaves in the scratch: its stores read back. -/
def sout0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) : Vec F S8x512 .f32 :=
  VS0_0.read (Elt F) (VS0_0.writes (Elt F) VS0_0.junk (kernelRun0_A c i arg2 harg2 arg3 harg3 arg4 harg4 arg5 harg5 hc0 hc1 x0 x1).2.1)

/-- Case B stores nothing into the output block: a placeholder nothing consults (the block is neither written back
    nor read at the next point). -/
def out0_B_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) : Vec F S8x512 .f32 :=
  VO0_2.read (Elt F) (VO0_2.writes (Elt F) VO0_2.junk (kernelRun0_B c i arg2 harg2 arg3 harg3 arg4 harg4 arg5 harg5 hc0 hc1 x0 x1 xs0).1)

/-- Case B's stores into the scratch cover it. -/
theorem scover0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) (y : S8x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x512.size (by sl_kernel_rfl) y

/-- What case B leaves in the scratch: its stores read back. -/
def sout0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) : Vec F S8x512 .f32 :=
  VS0_0.read (Elt F) (VS0_0.writes (Elt F) VS0_0.junk (kernelRun0_B c i arg2 harg2 arg3 harg3 arg4 harg4 arg5 harg5 hc0 hc1 x0 x1 xs0).2.1)

/-- Case C's one store into the output block covers it. -/
theorem cover0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x512.size (by sl_kernel_rfl) y

/-- What case C leaves in the output block: its store read back. -/
def out0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) : Vec F S8x512 .f32 :=
  VO0_2.read (Elt F) (VO0_2.writes (Elt F) VO0_2.junk (kernelRun0_C c i arg2 harg2 arg3 harg3 arg4 harg4 arg5 harg5 hc0 hc1 x0 x1 xs0).1)

/-- Case C's stores into the scratch cover it. -/
theorem scover0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x512.size (by sl_kernel_rfl) y

/-- What case C leaves in the scratch: its stores read back. -/
def sout0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) : Vec F S8x512 .f32 :=
  VS0_0.read (Elt F) (VS0_0.writes (Elt F) VS0_0.junk (kernelRun0_C c i arg2 harg2 arg3 harg3 arg4 harg4 arg5 harg5 hc0 hc1 x0 x1 xs0).2.1)

/-! ## The blocks, and what the buffers hold after each point -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the output block's staging buffer and the scratch hold after the body at position `n` (a pair): the case the
    position is in, run at the point's memrefs and input blocks, the scratch before it at what position `n - 1` left. -/
def outsAt0 (c : Dev nD) : (n : ℕ) → n < cfg0.N → Vec F S8x512 .f32 × Vec F S8x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every unstaged scoped buffer at anything);
    afterwards the scratch at what the point before left in it, the other call's buffers at anything, the generator
    register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((outsAt0 V c n hn).2) ∗ others0 (F := F) c ∗ (∃ r, prngReg c r)) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The pipeline's proof data -/

/-- The arrays as the region finds them; after the body at point `t` each input's buffer at its block and the output's at
    `outsAt`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.KReg0Oblig.lean ====
/-
  The first nearest-neighbour call: the body obligation. At a point the inputs' staging buffers hold
  their blocks; the point's position modulo 8 says which case it is in; the invariant hands the body the scratch at
  what the point before left (at anything at the very first point) and takes it back at this point's contents.
-/
import proofs.«170943_j75333726372154_1_alg».proof.Proof.KReg0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · -- case A
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split (F := F) c) $$ HΦ
        icases HΦ' with ⟨HS0, Hoth, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · -- case C
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · -- case B
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ hne]
  iintro ⟨HS0, Hoth, Hg⟩
  iapply (PhiA0_join (F := F) c)
  isplitl [HS0]; · iexists _; iexact HS0
  isplitl [Hoth]; · iexact Hoth
  iexact Hg

end Cert.Kernel.Hand

end
-- ==== Proof.KReg1Shared.lean ====
/-
  The first nearest-neighbour call (grid 8 × 8, point t = 8·n + m: row tile n, column tile m), what its three control
  cases share. The body keeps a running minimum in a scratch buffer: at m = 0 it first fills the scratch with +∞; at
  every point it replaces the scratch by its minimum with the tile's row minima; at m = 7 it copies the scratch to the
  output block. So a point is in case A (m = 0), B (0 < m < 7) or C (m = 7); the output block is untouched, and not
  written back, in cases A and B.
-/
import proofs.«170943_j75333726372154_1_alg».proof.Proof.Gen.Kernel.Launch
import proofs.«170943_j75333726372154_1_alg».proof.Proof.Gen.Kernel.Skeleton
import proofs.«170943_j75333726372154_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- "This is the first column tile": the condition of the body's first conditional. -/
abbrev cond1_0 (i : grid1.Coords) : Prop := (Scalar.cmpi .ne (Scalar.extui (Scalar.cmpi .eq (BitVec.ofNat 32 (i 1).val) 0#32)) 0#32) = 1#1
/-- It holds exactly at the points with m = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column tile": the condition of the body's second conditional. -/
abbrev cond1_1 (i : grid1.Coords) : Prop := k1_cond2 i = 1#1
/-- It holds exactly at the points with m = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- In cases A and B the body stores nothing into the output block, and the block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- In case C it stores the whole block. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S8x512 .f32 := (Memref.whole cc1_stg2_0 : Memref sig .tc .vmem S8x512 .f32).view
abbrev ms1_0 (t : Fin cfg1.N) : Memref sig .tc .vmem S8x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The scratch buffer holding the running minimum, as a memref and as a view. -/
abbrev scM1_0 : Memref sig .tc .vmem S8x512 .f32 := Memref.whole cc1_scratch0
abbrev VS1_0 : View sig .tc .vmem S8x512 .f32 := scM1_0.view

/-- The scoped buffers of the other call, each whole at some contents: they ride through this call untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant (every scoped buffer the pipeline does not stage at some contents, the generator register at
    some state) with this call's scratch split off as a memref owned at some contents. -/
theorem PhiA1_split (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]
  iintro ⟨⟨H1, H2, H3, H4, H5, H6, H7, HA⟩, Hg⟩
  isplitl [HA]
  · icases HA with ⟨%f, HA⟩; iexists f; rw [owns_whole]; iexact HA
  isplitr [Hg]
  swap
  · iexact Hg
  isplitl [H1]; · iexact H1
  isplitl [H2]; · iexact H2
  isplitl [H3]; · iexact H3
  isplitl [H4]; · iexact H4
  isplitl [H5]; · iexact H5
  isplitl [H6]; · iexact H6
  iexact H7

/-- And put back. -/
theorem PhiA1_join (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]
  iintro ⟨HA0, ⟨H1, H2, H3, H4, H5, H6, H7⟩, Hg⟩
  isplitr [Hg]
  swap
  · iexact Hg
  ihave HA := (show iprop(∃ d, owns (c : Thread nD τ) scM1_0 fullShare d) ⊢ (iprop(∃ f : Buf (Elt F) ((c : Thread nD τ).loc cc1_scratch0), ((c : Thread nD τ).loc cc1_scratch0) ↦{fullShare} f) : sProp 𝕄) from by
    simp only [owns_whole]; exact BI.Entails.refl _) $$ HA0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HA

end Cert.Kernel.Hand

end
-- ==== Proof.KReg1RunA.lean ====
/-
  The body of the second nearest-neighbour call run at a point of case A: the first column tile (the scratch is first filled with +∞).
  The stores each buffer ends with are found by running the body; they are this definition's witness.
-/
import proofs.«170943_j75333726372154_1_alg».proof.Proof.KReg1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1`, the body runs to its end, the inputs as they were, the output block untouched, the scratch with the pieces `LS0` written. -/
noncomputable def kernelRun1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__chamfer_half_kernel i arg2 harg2 arg3 harg3 arg4 harg4 arg5 harg5) K } := by
  refine ⟨[], ?_, fun xi2 E K => ?run⟩
  case run =>
    simp only [cc1__chamfer_half_kernel_eq_skeleton]; unfold cc1__chamfer_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KReg1RunB.lean ====
/-
  The body of the second nearest-neighbour call run at a point of case B: a middle column tile (the scratch holds the running minimum of the tiles before).
  The stores each buffer ends with are found by running the body; they are this definition's witness.
-/
import proofs.«170943_j75333726372154_1_alg».proof.Proof.KReg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block untouched, the scratch with the pieces `LS0` written. -/
noncomputable def kernelRun1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__chamfer_half_kernel i arg2 harg2 arg3 harg3 arg4 harg4 arg5 harg5) K } := by
  refine ⟨[], ?_, fun xi2 E K => ?run⟩
  case run =>
    simp only [cc1__chamfer_half_kernel_eq_skeleton]; unfold cc1__chamfer_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KReg1RunC.lean ====
/-
  The body of the second nearest-neighbour call run at a point of case C: the last column tile (after the update the scratch is copied to the output block).
  The stores each buffer ends with are found by running the body; they are this definition's witness.
-/
import proofs.«170943_j75333726372154_1_alg».proof.Proof.KReg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block with the pieces `L2` written, the scratch with the pieces `LS0` written. -/
noncomputable def kernelRun1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__chamfer_half_kernel i arg2 harg2 arg3 harg3 arg4 harg4 arg5 harg5) K } := by
  refine ⟨?_, ?_, fun E K => ?run⟩
  case run =>
    simp only [cc1__chamfer_half_kernel_eq_skeleton]; unfold cc1__chamfer_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KReg1Body.lean ====
/-
  The second nearest-neighbour call, point by point: what the output block and the scratch hold after the body
  at each grid point (the scratch carries the running minimum from one column tile to the next), the invariant that
  says so between points, the pipeline's proof data, and the body obligation at a generic point.
-/
import proofs.«170943_j75333726372154_1_alg».proof.Proof.KReg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nothing consults (the block is neither written back
    nor read at the next point). -/
def out1_A_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) : Vec F S8x512 .f32 :=
  VO1_2.read (Elt F) (VO1_2.writes (Elt F) VO1_2.junk (kernelRun1_A c i arg2 harg2 arg3 harg3 arg4 harg4 arg5 harg5 hc0 hc1 x0 x1).1)

/-- Case A's stores into the scratch cover it. -/
theorem scover1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) (y : S8x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x512.size (by sl_kernel_rfl) y

/-- What case A leaves in the scratch: its stores read back. -/
def sout1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) : Vec F S8x512 .f32 :=
  VS1_0.read (Elt F) (VS1_0.writes (Elt F) VS1_0.junk (kernelRun1_A c i arg2 harg2 arg3 harg3 arg4 harg4 arg5 harg5 hc0 hc1 x0 x1).2.1)

/-- Case B stores nothing into the output block: a placeholder nothing consults (the block is neither written back
    nor read at the next point). -/
def out1_B_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) : Vec F S8x512 .f32 :=
  VO1_2.read (Elt F) (VO1_2.writes (Elt F) VO1_2.junk (kernelRun1_B c i arg2 harg2 arg3 harg3 arg4 harg4 arg5 harg5 hc0 hc1 x0 x1 xs0).1)

/-- Case B's stores into the scratch cover it. -/
theorem scover1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) (y : S8x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x512.size (by sl_kernel_rfl) y

/-- What case B leaves in the scratch: its stores read back. -/
def sout1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) : Vec F S8x512 .f32 :=
  VS1_0.read (Elt F) (VS1_0.writes (Elt F) VS1_0.junk (kernelRun1_B c i arg2 harg2 arg3 harg3 arg4 harg4 arg5 harg5 hc0 hc1 x0 x1 xs0).2.1)

/-- Case C's one store into the output block covers it. -/
theorem cover1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x512.size (by sl_kernel_rfl) y

/-- What case C leaves in the output block: its store read back. -/
def out1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) : Vec F S8x512 .f32 :=
  VO1_2.read (Elt F) (VO1_2.writes (Elt F) VO1_2.junk (kernelRun1_C c i arg2 harg2 arg3 harg3 arg4 harg4 arg5 harg5 hc0 hc1 x0 x1 xs0).1)

/-- Case C's stores into the scratch cover it. -/
theorem scover1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x512.size (by sl_kernel_rfl) y

/-- What case C leaves in the scratch: its stores read back. -/
def sout1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) : Vec F S8x512 .f32 :=
  VS1_0.read (Elt F) (VS1_0.writes (Elt F) VS1_0.junk (kernelRun1_C c i arg2 harg2 arg3 harg3 arg4 harg4 arg5 harg5 hc0 hc1 x0 x1 xs0).2.1)

/-! ## The blocks, and what the buffers hold after each point -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the output block's staging buffer and the scratch hold after the body at position `n` (a pair): the case the
    position is in, run at the point's memrefs and input blocks, the scratch before it at what position `n - 1` left. -/
def outsAt1 (c : Dev nD) : (n : ℕ) → n < cfg1.N → Vec F S8x512 .f32 × Vec F S8x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every unstaged scoped buffer at anything);
    afterwards the scratch at what the point before left in it, the other call's buffers at anything, the generator
    register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The pipeline's proof data -/

/-- The arrays as the region finds them; after the body at point `t` each input's buffer at its block and the output's at
    `outsAt`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.KReg1Oblig.lean ====
/-
  The second nearest-neighbour call: the body obligation. At a point the inputs' staging buffers hold
  their blocks; the point's position modulo 8 says which case it is in; the invariant hands the body the scratch at
  what the point before left (at anything at the very first point) and takes it back at this point's contents.
-/
import proofs.«170943_j75333726372154_1_alg».proof.Proof.KReg1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split (F := F) c) $$ HΦ
        icases HΦ' with ⟨HS0, Hoth, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne]
  iintro ⟨HS0, Hoth, Hg⟩
  iapply (PhiA1_join (F := F) c)
  isplitl [HS0]; · iexists _; iexact HS0
  isplitl [Hoth]; · iexact Hoth
  iexact Hg

end Cert.Kernel.Hand

end
-- ==== Proof.KRun.lean ====
/-
  The whole program as four segments — the host operations before the calls, the two nearest-neighbour calls, the host
  operations after them — with the buffer contents at each boundary written as a fold from the launch memory: a host
  stretch applies its operations; a call leaves each of its arrays at what its write-backs leave and every other buffer
  as entered. The run ends with every unscoped buffer at the last boundary's contents.
-/
import proofs.«170943_j75333726372154_1_alg».proof.Proof.KReg0Oblig
import proofs.«170943_j75333726372154_1_alg».proof.Proof.KReg1Oblig
import proofs.«170943_j75333726372154_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host operations before the calls. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the host operations that follow the calls. -/
abbrev W4 : Dev nD → Valuation τ sig (Elt F) := fun c => StableHlo.after hostOps2 (W3 m c)

/-! ## The proof data family and the thread state -/

/-- Each call's proof data at its entry contents (a literal match on the pipeline index). -/
def pdatsH : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱H : Variants := Variants.none
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W4 m c) ∗ ∃ r, prngReg c r)

/-! ## The calls as segments -/

-- the library's lemmas are stated over the pinned configuration: unification must unfold plain definitions in a
-- metavariable's type to meet them
set_option backward.isDefEq.respectTransparency.types false in
/-- The first call over the thread state: entered from every unscoped buffer at `W1`, left at `W2`. Its arrays
    are split out of the unscoped buffers and put back at the exit contents; the generator register goes into the
    invariant and comes back; nothing is owed; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (V1 m c) (V2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration: unification must unfold plain definitions in a
-- metavariable's type to meet them
set_option backward.isDefEq.respectTransparency.types false in
/-- The second call over the thread state: entered from every unscoped buffer at `W2`, left at `W3`. Its arrays
    are split out of the unscoped buffers and put back at the exit contents; the generator register goes into the
    invariant and comes back; nothing is owed; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (V2 m c) (V3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) adm (pdatsH m) () defs₀ 𝒱H LH lvH) :=
  [ .host (hsegH hostOps0 hostOps0_sub hostOps0_fresh (W0 m)),
    .region (reg0 m),
    .region (reg1 m),
    .host (hsegH hostOps2 hostOps2_sub hostOps2_fresh (W3 m)) ]
theorem main_run (c : Dev nD) : main (F := F) c = Pipeline.Seg.run (segsH m) := (main_chain c).trans (by chain_rfl)

set_option backward.isDefEq.respectTransparency.types false in
/-- From any memory with zero counters every weakly fair execution of the program terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => by
      show iprop(StableHlo.held (c : Thread nD τ) (Pipeline.ucRefs τ sig) (W4 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.KEnds.lean ====
/-
  The ends of the run: no host operation and no call writes an argument array (a call reads it through an input window
  or leaves it aside), so each argument's buffer at the last boundary walks back through the fold to the launch memory.
  Hence the frame: the program runs to its end and its argument arrays end as launched.
-/
import proofs.«170943_j75333726372154_1_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c main_arg0 = m ((c : Thread nD τ).loc main_arg0) :=
  calc W4 m c main_arg0
    _ = W3 m c main_arg0 := StableHlo.after_of_writes_sub hostOps2 _ hostOps2_writes (by decide : main_arg0 ∉ hostOps2_W)
    _ = W2 m c main_arg0 := (W3_arr m c 1).trans (((dat1 (V2 m) c).arrAt_in 1 rfl _).trans (A_eq1 (V2 m) c 1))
    _ = W1 m c main_arg0 := (W2_arr m c 0).trans (((dat0 (V1 m) c).arrAt_in 0 rfl _).trans (A_eq0 (V1 m) c 0))
    _ = W0 m c main_arg0 := StableHlo.after_of_writes_sub hostOps0 _ hostOps0_writes (by decide : main_arg0 ∉ hostOps0_W)
    _ = m ((c : Thread nD τ).loc main_arg0) := rfl
theorem W4_main_arg1 (c : Dev nD) : W4 m c main_arg1 = m ((c : Thread nD τ).loc main_arg1) :=
  calc W4 m c main_arg1
    _ = W3 m c main_arg1 := StableHlo.after_of_writes_sub hostOps2 _ hostOps2_writes (by decide : main_arg1 ∉ hostOps2_W)
    _ = W2 m c main_arg1 := (W3_arr m c 0).trans (((dat1 (V2 m) c).arrAt_in 0 rfl _).trans (A_eq1 (V2 m) c 0))
    _ = W1 m c main_arg1 := (W2_arr m c 1).trans (((dat0 (V1 m) c).arrAt_in 1 rfl _).trans (A_eq0 (V1 m) c 1))
    _ = W0 m c main_arg1 := StableHlo.after_of_writes_sub hostOps0 _ hostOps0_writes (by decide : main_arg1 ∉ hostOps0_W)
    _ = m ((c : Thread nD τ).loc main_arg1) := rfl
theorem W4_main_arg2 (c : Dev nD) : W4 m c main_arg2 = m ((c : Thread nD τ).loc main_arg2) :=
  calc W4 m c main_arg2
    _ = W3 m c main_arg2 := StableHlo.after_of_writes_sub hostOps2 _ hostOps2_writes (by decide : main_arg2 ∉ hostOps2_W)
    _ = W2 m c main_arg2 := W3_of_ne m c main_arg2 (by decide)
    _ = W1 m c main_arg2 := W2_of_ne m c main_arg2 (by decide)
    _ = W0 m c main_arg2 := StableHlo.after_of_writes_sub hostOps0 _ hostOps0_writes (by decide : main_arg2 ∉ hostOps0_W)
    _ = m ((c : Thread nD τ).loc main_arg2) := rfl
theorem W4_main_arg3 (c : Dev nD) : W4 m c main_arg3 = m ((c : Thread nD τ).loc main_arg3) :=
  calc W4 m c main_arg3
    _ = W3 m c main_arg3 := StableHlo.after_of_writes_sub hostOps2 _ hostOps2_writes (by decide : main_arg3 ∉ hostOps2_W)
    _ = W2 m c main_arg3 := W3_of_ne m c main_arg3 (by decide)
    _ = W1 m c main_arg3 := W2_of_ne m c main_arg3 (by decide)
    _ = W0 m c main_arg3 := StableHlo.after_of_writes_sub hostOps0 _ hostOps0_writes (by decide : main_arg3 ∉ hostOps0_W)
    _ = m ((c : Thread nD τ).loc main_arg3) := rfl
theorem W4_main_arg4 (c : Dev nD) : W4 m c main_arg4 = m ((c : Thread nD τ).loc main_arg4) :=
  calc W4 m c main_arg4
    _ = W3 m c main_arg4 := StableHlo.after_of_writes_sub hostOps2 _ hostOps2_writes (by decide : main_arg4 ∉ hostOps2_W)
    _ = W2 m c main_arg4 := W3_of_ne m c main_arg4 (by decide)
    _ = W1 m c main_arg4 := W2_of_ne m c main_arg4 (by decide)
    _ = W0 m c main_arg4 := StableHlo.after_of_writes_sub hostOps0 _ hostOps0_writes (by decide : main_arg4 ∉ hostOps0_W)
    _ = m ((c : Thread nD τ).loc main_arg4) := rfl
theorem W4_main_arg5 (c : Dev nD) : W4 m c main_arg5 = m ((c : Thread nD τ).loc main_arg5) :=
  calc W4 m c main_arg5
    _ = W3 m c main_arg5 := StableHlo.after_of_writes_sub hostOps2 _ hostOps2_writes (by decide : main_arg5 ∉ hostOps2_W)
    _ = W2 m c main_arg5 := W3_of_ne m c main_arg5 (by decide)
    _ = W1 m c main_arg5 := W2_of_ne m c main_arg5 (by decide)
    _ = W0 m c main_arg5 := StableHlo.after_of_writes_sub hostOps0 _ hostOps0_writes (by decide : main_arg5 ∉ hostOps0_W)
    _ = m ((c : Thread nD τ).loc main_arg5) := rfl
theorem W4_main_arg6 (c : Dev nD) : W4 m c main_arg6 = m ((c : Thread nD τ).loc main_arg6) :=
  calc W4 m c main_arg6
    _ = W3 m c main_arg6 := StableHlo.after_of_writes_sub hostOps2 _ hostOps2_writes (by decide : main_arg6 ∉ hostOps2_W)
    _ = W2 m c main_arg6 := W3_of_ne m c main_arg6 (by decide)
    _ = W1 m c main_arg6 := W2_of_ne m c main_arg6 (by decide)
    _ = W0 m c main_arg6 := StableHlo.after_of_writes_sub hostOps0 _ hostOps0_writes (by decide : main_arg6 ∉ hostOps0_W)
    _ = m ((c : Thread nD τ).loc main_arg6) := rfl
theorem W4_main_arg7 (c : Dev nD) : W4 m c main_arg7 = m ((c : Thread nD τ).loc main_arg7) :=
  calc W4 m c main_arg7
    _ = W3 m c main_arg7 := StableHlo.after_of_writes_sub hostOps2 _ hostOps2_writes (by decide : main_arg7 ∉ hostOps2_W)
    _ = W2 m c main_arg7 := W3_of_ne m c main_arg7 (by decide)
    _ = W1 m c main_arg7 := W2_of_ne m c main_arg7 (by decide)
    _ = W0 m c main_arg7 := StableHlo.after_of_writes_sub hostOps0 _ hostOps0_writes (by decide : main_arg7 ∉ hostOps0_W)
    _ = m ((c : Thread nD τ).loc main_arg7) := rfl

/-- The run with its post read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c)⟩) (run_all m ρ)

/-- The first call's output array after the run is what its write-backs leave; the second call does not touch it. -/
theorem W3_v21 (c : Dev nD) : W3 m c main_v21 = (dat0 (V1 m) c).arrAt 2 cfg0.N :=
  (W3_of_ne m c main_v21 (by decide)).trans (W2_arr m c 2)
/-- The second call's output array after the run is what its write-backs leave. -/
theorem W3_v22 (c : Dev nD) : W3 m c main_v22 = (dat1 (V2 m) c).arrAt 2 cfg1.N :=
  W3_arr m c 2
/-- The regularisation term's buffer is untouched by both calls. -/
theorem W3_v20 (c : Dev nD) : W3 m c main_v20 = W1 m c main_v20 :=
  (W3_of_ne m c main_v20 (by decide)).trans (W2_of_ne m c main_v20 (by decide))
/-- The arrays the second call reads are the arguments as launched. -/
theorem V2_main_arg0 (c : Dev nD) : V2 m c main_arg0 = m ((c : Thread nD τ).loc main_arg0) :=
  ((W2_arr m c 0).trans (((dat0 (V1 m) c).arrAt_in 0 rfl _).trans (A_eq0 (V1 m) c 0))).trans
    (StableHlo.after_of_writes_sub hostOps0 _ hostOps0_writes (by decide : main_arg0 ∉ hostOps0_W))
theorem V2_main_arg1 (c : Dev nD) : V2 m c main_arg1 = m ((c : Thread nD τ).loc main_arg1) :=
  ((W2_arr m c 1).trans (((dat0 (V1 m) c).arrAt_in 1 rfl _).trans (A_eq0 (V1 m) c 1))).trans
    (StableHlo.after_of_writes_sub hostOps0 _ hostOps0_writes (by decide : main_arg1 ∉ hostOps0_W))
theorem V1_main_arg0 (c : Dev nD) : V1 m c main_arg0 = m ((c : Thread nD τ).loc main_arg0) :=
  StableHlo.after_of_writes_sub hostOps0 _ hostOps0_writes (by decide : main_arg0 ∉ hostOps0_W)
theorem V1_main_arg1 (c : Dev nD) : V1 m c main_arg1 = m ((c : Thread nD τ).loc main_arg1) :=
  StableHlo.after_of_writes_sub hostOps0 _ hostOps0_writes (by decide : main_arg1 ∉ hostOps0_W)

end Cert.Kernel.Hand

end
-- ==== Proof.KIReg0Shared.lean ====
/-
  The first nearest-neighbour call (grid 8 × 8, point t = 8·n + m: row tile n, column tile m), what its three control
  cases share. The body keeps a running minimum in a scratch buffer: at m = 0 it first fills the scratch with +∞; at
  every point it replaces the scratch by its minimum with the tile's row minima; at m = 7 it copies the scratch to the
  output block. So a point is in case A (m = 0), B (0 < m < 7) or C (m = 7); the output block is untouched, and not
  written back, in cases A and B.
-/
import proofs.«170943_j75333726372154_1_alg».proof.Proof.Gen.KernelIdeal.Launch
import proofs.«170943_j75333726372154_1_alg».proof.Proof.Gen.KernelIdeal.Skeleton
import proofs.«170943_j75333726372154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- "This is the first column tile": the condition of the body's first conditional. -/
abbrev cond0_0 (i : grid0.Coords) : Prop := (Scalar.cmpi .ne (Scalar.extui (Scalar.cmpi .eq (BitVec.ofNat 32 (i 1).val) 0#32)) 0#32) = 1#1
/-- It holds exactly at the points with m = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile": the condition of the body's second conditional. -/
abbrev cond0_1 (i : grid0.Coords) : Prop := k0_cond2 i = 1#1
/-- It holds exactly at the points with m = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- In cases A and B the body stores nothing into the output block, and the block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- In case C it stores the whole block. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S8x512 .f32 := (Memref.whole cc0_stg2_0 : Memref sig .tc .vmem S8x512 .f32).view
abbrev ms0_0 (t : Fin cfg0.N) : Memref sig .tc .vmem S8x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
/-- The scratch buffer holding the running minimum, as a memref and as a view. -/
abbrev scM0_0 : Memref sig .tc .vmem S8x512 .f32 := Memref.whole cc0_scratch0
abbrev VS0_0 : View sig .tc .vmem S8x512 .f32 := scM0_0.view

/-- The scoped buffers of the other call, each whole at some contents: they ride through this call untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant (every scoped buffer the pipeline does not stage at some contents, the generator register at
    some state) with this call's scratch split off as a memref owned at some contents. -/
theorem PhiA0_split (c : Dev nD) :
    (Pipeline.ΦA spec0 c : sProp 𝕄) ⊢ iprop((∃ d, owns (c : Thread nD τ) scM0_0 fullShare d) ∗ others0 (F := F) c ∗ (∃ r, prngReg c r)) := by
  unfold Pipeline.ΦA others0; rw [scopedRest0_eq]
  iintro ⟨⟨HA, H1, H2, H3, H4, H5, H6, H7⟩, Hg⟩
  isplitl [HA]
  · icases HA with ⟨%f, HA⟩; iexists f; rw [owns_whole]; iexact HA
  isplitr [Hg]
  swap
  · iexact Hg
  isplitl [H1]; · iexact H1
  isplitl [H2]; · iexact H2
  isplitl [H3]; · iexact H3
  isplitl [H4]; · iexact H4
  isplitl [H5]; · iexact H5
  isplitl [H6]; · iexact H6
  iexact H7

/-- And put back. -/
theorem PhiA0_join (c : Dev nD) :
    iprop((∃ d, owns (c : Thread nD τ) scM0_0 fullShare d) ∗ others0 (F := F) c ∗ (∃ r, prngReg c r)) ⊢ (Pipeline.ΦA spec0 c : sProp 𝕄) := by
  unfold Pipeline.ΦA others0; rw [scopedRest0_eq]
  iintro ⟨HA0, ⟨H1, H2, H3, H4, H5, H6, H7⟩, Hg⟩
  isplitr [Hg]
  swap
  · iexact Hg
  ihave HA := (show iprop(∃ d, owns (c : Thread nD τ) scM0_0 fullShare d) ⊢ (iprop(∃ f : Buf (Elt F) ((c : Thread nD τ).loc cc0_scratch0), ((c : Thread nD τ).loc cc0_scratch0) ↦{fullShare} f) : sProp 𝕄) from by
    simp only [owns_whole]; exact BI.Entails.refl _) $$ HA0
  isplitl [HA]; · iexact HA
  isplitl [H1]; · iexact H1
  isplitl [H2]; · iexact H2
  isplitl [H3]; · iexact H3
  isplitl [H4]; · iexact H4
  isplitl [H5]; · iexact H5
  isplitl [H6]; · iexact H6
  iexact H7

end Cert.KernelIdeal.Hand

end
-- ==== Proof.KIReg0RunA.lean ====
/-
  The body of the first nearest-neighbour call run at a point of case A: the first column tile (the scratch is first filled with +∞).
  The stores each buffer ends with are found by running the body; they are this definition's witness.
-/
import proofs.«170943_j75333726372154_1_alg».proof.Proof.KIReg0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1`, the body runs to its end, the inputs as they were, the output block untouched, the scratch with the pieces `LS0` written. -/
noncomputable def kernelRun0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_half_kernel i arg2 harg2 arg3 harg3 arg4 harg4 arg5 harg5) K } := by
  refine ⟨[], ?_, fun xi2 E K => ?run⟩
  case run =>
    simp only [cc0__chamfer_half_kernel_eq_skeleton]; unfold cc0__chamfer_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIReg0RunB.lean ====
/-
  The body of the first nearest-neighbour call run at a point of case B: a middle column tile (the scratch holds the running minimum of the tiles before).
  The stores each buffer ends with are found by running the body; they are this definition's witness.
-/
import proofs.«170943_j75333726372154_1_alg».proof.Proof.KIReg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block untouched, the scratch with the pieces `LS0` written. -/
noncomputable def kernelRun0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_half_kernel i arg2 harg2 arg3 harg3 arg4 harg4 arg5 harg5) K } := by
  refine ⟨[], ?_, fun xi2 E K => ?run⟩
  case run =>
    simp only [cc0__chamfer_half_kernel_eq_skeleton]; unfold cc0__chamfer_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIReg0RunC.lean ====
/-
  The body of the first nearest-neighbour call run at a point of case C: the last column tile (after the update the scratch is copied to the output block).
  The stores each buffer ends with are found by running the body; they are this definition's witness.
-/
import proofs.«170943_j75333726372154_1_alg».proof.Proof.KIReg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block with the pieces `L2` written, the scratch with the pieces `LS0` written. -/
noncomputable def kernelRun0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_half_kernel i arg2 harg2 arg3 harg3 arg4 harg4 arg5 harg5) K } := by
  refine ⟨?_, ?_, fun E K => ?run⟩
  case run =>
    simp only [cc0__chamfer_half_kernel_eq_skeleton]; unfold cc0__chamfer_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KIReg0Body.lean ====
/-
  The first nearest-neighbour call, point by point: what the output block and the scratch hold after the body
  at each grid point (the scratch carries the running minimum from one column tile to the next), the invariant that
  says so between points, the pipeline's proof data, and the body obligation at a generic point.
-/
import proofs.«170943_j75333726372154_1_alg».proof.Proof.KIReg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nothing consults (the block is neither written back
    nor read at the next point). -/
def out0_A_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) : Vec F S8x512 .f32 :=
  VO0_2.read (Elt F) (VO0_2.writes (Elt F) VO0_2.junk (kernelRun0_A c i arg2 harg2 arg3 harg3 arg4 harg4 arg5 harg5 hc0 hc1 x0 x1).1)

/-- Case A's stores into the scratch cover it. -/
theorem scover0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) (y : S8x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x512.size (by sl_kernel_rfl) y

/-- What case A leaves in the scratch: its stores read back. -/
def sout0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) : Vec F S8x512 .f32 :=
  VS0_0.read (Elt F) (VS0_0.writes (Elt F) VS0_0.junk (kernelRun0_A c i arg2 harg2 arg3 harg3 arg4 harg4 arg5 harg5 hc0 hc1 x0 x1).2.1)

/-- Case B stores nothing into the output block: a placeholder nothing consults (the block is neither written back
    nor read at the next point). -/
def out0_B_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) : Vec F S8x512 .f32 :=
  VO0_2.read (Elt F) (VO0_2.writes (Elt F) VO0_2.junk (kernelRun0_B c i arg2 harg2 arg3 harg3 arg4 harg4 arg5 harg5 hc0 hc1 x0 x1 xs0).1)

/-- Case B's stores into the scratch cover it. -/
theorem scover0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) (y : S8x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x512.size (by sl_kernel_rfl) y

/-- What case B leaves in the scratch: its stores read back. -/
def sout0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) : Vec F S8x512 .f32 :=
  VS0_0.read (Elt F) (VS0_0.writes (Elt F) VS0_0.junk (kernelRun0_B c i arg2 harg2 arg3 harg3 arg4 harg4 arg5 harg5 hc0 hc1 x0 x1 xs0).2.1)

/-- Case C's one store into the output block covers it. -/
theorem cover0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x512.size (by sl_kernel_rfl) y

/-- What case C leaves in the output block: its store read back. -/
def out0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) : Vec F S8x512 .f32 :=
  VO0_2.read (Elt F) (VO0_2.writes (Elt F) VO0_2.junk (kernelRun0_C c i arg2 harg2 arg3 harg3 arg4 harg4 arg5 harg5 hc0 hc1 x0 x1 xs0).1)

/-- Case C's stores into the scratch cover it. -/
theorem scover0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x512.size (by sl_kernel_rfl) y

/-- What case C leaves in the scratch: its stores read back. -/
def sout0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) : Vec F S8x512 .f32 :=
  VS0_0.read (Elt F) (VS0_0.writes (Elt F) VS0_0.junk (kernelRun0_C c i arg2 harg2 arg3 harg3 arg4 harg4 arg5 harg5 hc0 hc1 x0 x1 xs0).2.1)

/-! ## The blocks, and what the buffers hold after each point -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the output block's staging buffer and the scratch hold after the body at position `n` (a pair): the case the
    position is in, run at the point's memrefs and input blocks, the scratch before it at what position `n - 1` left. -/
def outsAt0 (c : Dev nD) : (n : ℕ) → n < cfg0.N → Vec F S8x512 .f32 × Vec F S8x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every unstaged scoped buffer at anything);
    afterwards the scratch at what the point before left in it, the other call's buffers at anything, the generator
    register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((outsAt0 V c n hn).2) ∗ others0 (F := F) c ∗ (∃ r, prngReg c r)) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The pipeline's proof data -/

/-- The arrays as the region finds them; after the body at point `t` each input's buffer at its block and the output's at
    `outsAt`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.KIReg0Oblig.lean ====
/-
  The first nearest-neighbour call: the body obligation. At a point the inputs' staging buffers hold
  their blocks; the point's position modulo 8 says which case it is in; the invariant hands the body the scratch at
  what the point before left (at anything at the very first point) and takes it back at this point's contents.
-/
import proofs.«170943_j75333726372154_1_alg».proof.Proof.KIReg0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · -- case A
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split (F := F) c) $$ HΦ
        icases HΦ' with ⟨HS0, Hoth, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · -- case C
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · -- case B
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ hne]
  iintro ⟨HS0, Hoth, Hg⟩
  iapply (PhiA0_join (F := F) c)
  isplitl [HS0]; · iexists _; iexact HS0
  isplitl [Hoth]; · iexact Hoth
  iexact Hg

end Cert.KernelIdeal.Hand

end
-- ==== Proof.KIReg1Shared.lean ====
/-
  The first nearest-neighbour call (grid 8 × 8, point t = 8·n + m: row tile n, column tile m), what its three control
  cases share. The body keeps a running minimum in a scratch buffer: at m = 0 it first fills the scratch with +∞; at
  every point it replaces the scratch by its minimum with the tile's row minima; at m = 7 it copies the scratch to the
  output block. So a point is in case A (m = 0), B (0 < m < 7) or C (m = 7); the output block is untouched, and not
  written back, in cases A and B.
-/
import proofs.«170943_j75333726372154_1_alg».proof.Proof.Gen.KernelIdeal.Launch
import proofs.«170943_j75333726372154_1_alg».proof.Proof.Gen.KernelIdeal.Skeleton
import proofs.«170943_j75333726372154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- "This is the first column tile": the condition of the body's first conditional. -/
abbrev cond1_0 (i : grid1.Coords) : Prop := (Scalar.cmpi .ne (Scalar.extui (Scalar.cmpi .eq (BitVec.ofNat 32 (i 1).val) 0#32)) 0#32) = 1#1
/-- It holds exactly at the points with m = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column tile": the condition of the body's second conditional. -/
abbrev cond1_1 (i : grid1.Coords) : Prop := k1_cond2 i = 1#1
/-- It holds exactly at the points with m = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- In cases A and B the body stores nothing into the output block, and the block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- In case C it stores the whole block. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S8x512 .f32 := (Memref.whole cc1_stg2_0 : Memref sig .tc .vmem S8x512 .f32).view
abbrev ms1_0 (t : Fin cfg1.N) : Memref sig .tc .vmem S8x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The scratch buffer holding the running minimum, as a memref and as a view. -/
abbrev scM1_0 : Memref sig .tc .vmem S8x512 .f32 := Memref.whole cc1_scratch0
abbrev VS1_0 : View sig .tc .vmem S8x512 .f32 := scM1_0.view

/-- The scoped buffers of the other call, each whole at some contents: they ride through this call untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant (every scoped buffer the pipeline does not stage at some contents, the generator register at
    some state) with this call's scratch split off as a memref owned at some contents. -/
theorem PhiA1_split (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]
  iintro ⟨⟨H1, H2, H3, H4, H5, H6, H7, HA⟩, Hg⟩
  isplitl [HA]
  · icases HA with ⟨%f, HA⟩; iexists f; rw [owns_whole]; iexact HA
  isplitr [Hg]
  swap
  · iexact Hg
  isplitl [H1]; · iexact H1
  isplitl [H2]; · iexact H2
  isplitl [H3]; · iexact H3
  isplitl [H4]; · iexact H4
  isplitl [H5]; · iexact H5
  isplitl [H6]; · iexact H6
  iexact H7

/-- And put back. -/
theorem PhiA1_join (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]
  iintro ⟨HA0, ⟨H1, H2, H3, H4, H5, H6, H7⟩, Hg⟩
  isplitr [Hg]
  swap
  · iexact Hg
  ihave HA := (show iprop(∃ d, owns (c : Thread nD τ) scM1_0 fullShare d) ⊢ (iprop(∃ f : Buf (Elt F) ((c : Thread nD τ).loc cc1_scratch0), ((c : Thread nD τ).loc cc1_scratch0) ↦{fullShare} f) : sProp 𝕄) from by
    simp only [owns_whole]; exact BI.Entails.refl _) $$ HA0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HA

end Cert.KernelIdeal.Hand

end
-- ==== Proof.KIReg1RunA.lean ====
/-
  The body of the second nearest-neighbour call run at a point of case A: the first column tile (the scratch is first filled with +∞).
  The stores each buffer ends with are found by running the body; they are this definition's witness.
-/
import proofs.«170943_j75333726372154_1_alg».proof.Proof.KIReg1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1`, the body runs to its end, the inputs as they were, the output block untouched, the scratch with the pieces `LS0` written. -/
noncomputable def kernelRun1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__chamfer_half_kernel i arg2 harg2 arg3 harg3 arg4 harg4 arg5 harg5) K } := by
  refine ⟨[], ?_, fun xi2 E K => ?run⟩
  case run =>
    simp only [cc1__chamfer_half_kernel_eq_skeleton]; unfold cc1__chamfer_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIReg1RunB.lean ====
/-
  The body of the second nearest-neighbour call run at a point of case B: a middle column tile (the scratch holds the running minimum of the tiles before).
  The stores each buffer ends with are found by running the body; they are this definition's witness.
-/
import proofs.«170943_j75333726372154_1_alg».proof.Proof.KIReg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block untouched, the scratch with the pieces `LS0` written. -/
noncomputable def kernelRun1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__chamfer_half_kernel i arg2 harg2 arg3 harg3 arg4 harg4 arg5 harg5) K } := by
  refine ⟨[], ?_, fun xi2 E K => ?run⟩
  case run =>
    simp only [cc1__chamfer_half_kernel_eq_skeleton]; unfold cc1__chamfer_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIReg1RunC.lean ====
/-
  The body of the second nearest-neighbour call run at a point of case C: the last column tile (after the update the scratch is copied to the output block).
  The stores each buffer ends with are found by running the body; they are this definition's witness.
-/
import proofs.«170943_j75333726372154_1_alg».proof.Proof.KIReg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the two input blocks at `x0`, `x1` and the scratch at `xs0`, the body runs to its end, the inputs as they were, the output block with the pieces `L2` written, the scratch with the pieces `LS0` written. -/
noncomputable def kernelRun1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__chamfer_half_kernel i arg2 harg2 arg3 harg3 arg4 harg4 arg5 harg5) K } := by
  refine ⟨?_, ?_, fun E K => ?run⟩
  case run =>
    simp only [cc1__chamfer_half_kernel_eq_skeleton]; unfold cc1__chamfer_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KIReg1Body.lean ====
/-
  The second nearest-neighbour call, point by point: what the output block and the scratch hold after the body
  at each grid point (the scratch carries the running minimum from one column tile to the next), the invariant that
  says so between points, the pipeline's proof data, and the body obligation at a generic point.
-/
import proofs.«170943_j75333726372154_1_alg».proof.Proof.KIReg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output block: a placeholder nothing consults (the block is neither written back
    nor read at the next point). -/
def out1_A_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) : Vec F S8x512 .f32 :=
  VO1_2.read (Elt F) (VO1_2.writes (Elt F) VO1_2.junk (kernelRun1_A c i arg2 harg2 arg3 harg3 arg4 harg4 arg5 harg5 hc0 hc1 x0 x1).1)

/-- Case A's stores into the scratch cover it. -/
theorem scover1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) (y : S8x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x512.size (by sl_kernel_rfl) y

/-- What case A leaves in the scratch: its stores read back. -/
def sout1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) : Vec F S8x512 .f32 :=
  VS1_0.read (Elt F) (VS1_0.writes (Elt F) VS1_0.junk (kernelRun1_A c i arg2 harg2 arg3 harg3 arg4 harg4 arg5 harg5 hc0 hc1 x0 x1).2.1)

/-- Case B stores nothing into the output block: a placeholder nothing consults (the block is neither written back
    nor read at the next point). -/
def out1_B_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) : Vec F S8x512 .f32 :=
  VO1_2.read (Elt F) (VO1_2.writes (Elt F) VO1_2.junk (kernelRun1_B c i arg2 harg2 arg3 harg3 arg4 harg4 arg5 harg5 hc0 hc1 x0 x1 xs0).1)

/-- Case B's stores into the scratch cover it. -/
theorem scover1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) (y : S8x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x512.size (by sl_kernel_rfl) y

/-- What case B leaves in the scratch: its stores read back. -/
def sout1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) : Vec F S8x512 .f32 :=
  VS1_0.read (Elt F) (VS1_0.writes (Elt F) VS1_0.junk (kernelRun1_B c i arg2 harg2 arg3 harg3 arg4 harg4 arg5 harg5 hc0 hc1 x0 x1 xs0).2.1)

/-- Case C's one store into the output block covers it. -/
theorem cover1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x512.size (by sl_kernel_rfl) y

/-- What case C leaves in the output block: its store read back. -/
def out1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) : Vec F S8x512 .f32 :=
  VO1_2.read (Elt F) (VO1_2.writes (Elt F) VO1_2.junk (kernelRun1_C c i arg2 harg2 arg3 harg3 arg4 harg4 arg5 harg5 hc0 hc1 x0 x1 xs0).1)

/-- Case C's stores into the scratch cover it. -/
theorem scover1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x512.size (by sl_kernel_rfl) y

/-- What case C leaves in the scratch: its stores read back. -/
def sout1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) : Vec F S8x512 .f32 :=
  VS1_0.read (Elt F) (VS1_0.writes (Elt F) VS1_0.junk (kernelRun1_C c i arg2 harg2 arg3 harg3 arg4 harg4 arg5 harg5 hc0 hc1 x0 x1 xs0).2.1)

/-! ## The blocks, and what the buffers hold after each point -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the output block's staging buffer and the scratch hold after the body at position `n` (a pair): the case the
    position is in, run at the point's memrefs and input blocks, the scratch before it at what position `n - 1` left. -/
def outsAt1 (c : Dev nD) : (n : ℕ) → n < cfg1.N → Vec F S8x512 .f32 × Vec F S8x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every unstaged scoped buffer at anything);
    afterwards the scratch at what the point before left in it, the other call's buffers at anything, the generator
    register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The pipeline's proof data -/

/-- The arrays as the region finds them; after the body at point `t` each input's buffer at its block and the output's at
    `outsAt`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.KIReg1Oblig.lean ====
/-
  The second nearest-neighbour call: the body obligation. At a point the inputs' staging buffers hold
  their blocks; the point's position modulo 8 says which case it is in; the invariant hands the body the scratch at
  what the point before left (at anything at the very first point) and takes it back at this point's contents.
-/
import proofs.«170943_j75333726372154_1_alg».proof.Proof.KIReg1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split (F := F) c) $$ HΦ
        icases HΦ' with ⟨HS0, Hoth, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne]
  iintro ⟨HS0, Hoth, Hg⟩
  iapply (PhiA1_join (F := F) c)
  isplitl [HS0]; · iexists _; iexact HS0
  isplitl [Hoth]; · iexact Hoth
  iexact Hg

end Cert.KernelIdeal.Hand

end
-- ==== Proof.KIRun.lean ====
/-
  The whole program as four segments — the host operations before the calls, the two nearest-neighbour calls, the host
  operations after them — with the buffer contents at each boundary written as a fold from the launch memory: a host
  stretch applies its operations; a call leaves each of its arrays at what its write-backs leave and every other buffer
  as entered. The run ends with every unscoped buffer at the last boundary's contents.
-/
import proofs.«170943_j75333726372154_1_alg».proof.Proof.KIReg0Oblig
import proofs.«170943_j75333726372154_1_alg».proof.Proof.KIReg1Oblig
import proofs.«170943_j75333726372154_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host operations before the calls. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the host operations that follow the calls. -/
abbrev W4 : Dev nD → Valuation τ sig (Elt F) := fun c => StableHlo.after hostOps2 (W3 m c)

/-! ## The proof data family and the thread state -/

/-- Each call's proof data at its entry contents (a literal match on the pipeline index). -/
def pdatsH : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱H : Variants := Variants.none
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W4 m c) ∗ ∃ r, prngReg c r)

/-! ## The calls as segments -/

-- the library's lemmas are stated over the pinned configuration: unification must unfold plain definitions in a
-- metavariable's type to meet them
set_option backward.isDefEq.respectTransparency.types false in
/-- The first call over the thread state: entered from every unscoped buffer at `W1`, left at `W2`. Its arrays
    are split out of the unscoped buffers and put back at the exit contents; the generator register goes into the
    invariant and comes back; nothing is owed; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (V1 m c) (V2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration: unification must unfold plain definitions in a
-- metavariable's type to meet them
set_option backward.isDefEq.respectTransparency.types false in
/-- The second call over the thread state: entered from every unscoped buffer at `W2`, left at `W3`. Its arrays
    are split out of the unscoped buffers and put back at the exit contents; the generator register goes into the
    invariant and comes back; nothing is owed; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (V2 m c) (V3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) adm (pdatsH m) () defs₀ 𝒱H LH lvH) :=
  [ .host (hsegH hostOps0 hostOps0_sub hostOps0_fresh (W0 m)),
    .region (reg0 m),
    .region (reg1 m),
    .host (hsegH hostOps2 hostOps2_sub hostOps2_fresh (W3 m)) ]
theorem main_run (c : Dev nD) : main (F := F) c = Pipeline.Seg.run (segsH m) := (main_chain c).trans (by chain_rfl)

set_option backward.isDefEq.respectTransparency.types false in
/-- From any memory with zero counters every weakly fair execution of the program terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => by
      show iprop(StableHlo.held (c : Thread nD τ) (Pipeline.ucRefs τ sig) (W4 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.KIEnds.lean ====
/-
  The ends of the run: no host operation and no call writes an argument array (a call reads it through an input window
  or leaves it aside), so each argument's buffer at the last boundary walks back through the fold to the launch memory.
  Hence the frame: the program runs to its end and its argument arrays end as launched.
-/
import proofs.«170943_j75333726372154_1_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c main_arg0 = m ((c : Thread nD τ).loc main_arg0) :=
  calc W4 m c main_arg0
    _ = W3 m c main_arg0 := StableHlo.after_of_writes_sub hostOps2 _ hostOps2_writes (by decide : main_arg0 ∉ hostOps2_W)
    _ = W2 m c main_arg0 := (W3_arr m c 1).trans (((dat1 (V2 m) c).arrAt_in 1 rfl _).trans (A_eq1 (V2 m) c 1))
    _ = W1 m c main_arg0 := (W2_arr m c 0).trans (((dat0 (V1 m) c).arrAt_in 0 rfl _).trans (A_eq0 (V1 m) c 0))
    _ = W0 m c main_arg0 := StableHlo.after_of_writes_sub hostOps0 _ hostOps0_writes (by decide : main_arg0 ∉ hostOps0_W)
    _ = m ((c : Thread nD τ).loc main_arg0) := rfl
theorem W4_main_arg1 (c : Dev nD) : W4 m c main_arg1 = m ((c : Thread nD τ).loc main_arg1) :=
  calc W4 m c main_arg1
    _ = W3 m c main_arg1 := StableHlo.after_of_writes_sub hostOps2 _ hostOps2_writes (by decide : main_arg1 ∉ hostOps2_W)
    _ = W2 m c main_arg1 := (W3_arr m c 0).trans (((dat1 (V2 m) c).arrAt_in 0 rfl _).trans (A_eq1 (V2 m) c 0))
    _ = W1 m c main_arg1 := (W2_arr m c 1).trans (((dat0 (V1 m) c).arrAt_in 1 rfl _).trans (A_eq0 (V1 m) c 1))
    _ = W0 m c main_arg1 := StableHlo.after_of_writes_sub hostOps0 _ hostOps0_writes (by decide : main_arg1 ∉ hostOps0_W)
    _ = m ((c : Thread nD τ).loc main_arg1) := rfl
theorem W4_main_arg2 (c : Dev nD) : W4 m c main_arg2 = m ((c : Thread nD τ).loc main_arg2) :=
  calc W4 m c main_arg2
    _ = W3 m c main_arg2 := StableHlo.after_of_writes_sub hostOps2 _ hostOps2_writes (by decide : main_arg2 ∉ hostOps2_W)
    _ = W2 m c main_arg2 := W3_of_ne m c main_arg2 (by decide)
    _ = W1 m c main_arg2 := W2_of_ne m c main_arg2 (by decide)
    _ = W0 m c main_arg2 := StableHlo.after_of_writes_sub hostOps0 _ hostOps0_writes (by decide : main_arg2 ∉ hostOps0_W)
    _ = m ((c : Thread nD τ).loc main_arg2) := rfl
theorem W4_main_arg3 (c : Dev nD) : W4 m c main_arg3 = m ((c : Thread nD τ).loc main_arg3) :=
  calc W4 m c main_arg3
    _ = W3 m c main_arg3 := StableHlo.after_of_writes_sub hostOps2 _ hostOps2_writes (by decide : main_arg3 ∉ hostOps2_W)
    _ = W2 m c main_arg3 := W3_of_ne m c main_arg3 (by decide)
    _ = W1 m c main_arg3 := W2_of_ne m c main_arg3 (by decide)
    _ = W0 m c main_arg3 := StableHlo.after_of_writes_sub hostOps0 _ hostOps0_writes (by decide : main_arg3 ∉ hostOps0_W)
    _ = m ((c : Thread nD τ).loc main_arg3) := rfl
theorem W4_main_arg4 (c : Dev nD) : W4 m c main_arg4 = m ((c : Thread nD τ).loc main_arg4) :=
  calc W4 m c main_arg4
    _ = W3 m c main_arg4 := StableHlo.after_of_writes_sub hostOps2 _ hostOps2_writes (by decide : main_arg4 ∉ hostOps2_W)
    _ = W2 m c main_arg4 := W3_of_ne m c main_arg4 (by decide)
    _ = W1 m c main_arg4 := W2_of_ne m c main_arg4 (by decide)
    _ = W0 m c main_arg4 := StableHlo.after_of_writes_sub hostOps0 _ hostOps0_writes (by decide : main_arg4 ∉ hostOps0_W)
    _ = m ((c : Thread nD τ).loc main_arg4) := rfl
theorem W4_main_arg5 (c : Dev nD) : W4 m c main_arg5 = m ((c : Thread nD τ).loc main_arg5) :=
  calc W4 m c main_arg5
    _ = W3 m c main_arg5 := StableHlo.after_of_writes_sub hostOps2 _ hostOps2_writes (by decide : main_arg5 ∉ hostOps2_W)
    _ = W2 m c main_arg5 := W3_of_ne m c main_arg5 (by decide)
    _ = W1 m c main_arg5 := W2_of_ne m c main_arg5 (by decide)
    _ = W0 m c main_arg5 := StableHlo.after_of_writes_sub hostOps0 _ hostOps0_writes (by decide : main_arg5 ∉ hostOps0_W)
    _ = m ((c : Thread nD τ).loc main_arg5) := rfl
theorem W4_main_arg6 (c : Dev nD) : W4 m c main_arg6 = m ((c : Thread nD τ).loc main_arg6) :=
  calc W4 m c main_arg6
    _ = W3 m c main_arg6 := StableHlo.after_of_writes_sub hostOps2 _ hostOps2_writes (by decide : main_arg6 ∉ hostOps2_W)
    _ = W2 m c main_arg6 := W3_of_ne m c main_arg6 (by decide)
    _ = W1 m c main_arg6 := W2_of_ne m c main_arg6 (by decide)
    _ = W0 m c main_arg6 := StableHlo.after_of_writes_sub hostOps0 _ hostOps0_writes (by decide : main_arg6 ∉ hostOps0_W)
    _ = m ((c : Thread nD τ).loc main_arg6) := rfl
theorem W4_main_arg7 (c : Dev nD) : W4 m c main_arg7 = m ((c : Thread nD τ).loc main_arg7) :=
  calc W4 m c main_arg7
    _ = W3 m c main_arg7 := StableHlo.after_of_writes_sub hostOps2 _ hostOps2_writes (by decide : main_arg7 ∉ hostOps2_W)
    _ = W2 m c main_arg7 := W3_of_ne m c main_arg7 (by decide)
    _ = W1 m c main_arg7 := W2_of_ne m c main_arg7 (by decide)
    _ = W0 m c main_arg7 := StableHlo.after_of_writes_sub hostOps0 _ hostOps0_writes (by decide : main_arg7 ∉ hostOps0_W)
    _ = m ((c : Thread nD τ).loc main_arg7) := rfl

/-- The run with its post read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c)⟩) (run_all m ρ)

/-- The first call's output array after the run is what its write-backs leave; the second call does not touch it. -/
theorem W3_v21 (c : Dev nD) : W3 m c main_v21 = (dat0 (V1 m) c).arrAt 2 cfg0.N :=
  (W3_of_ne m c main_v21 (by decide)).trans (W2_arr m c 2)
/-- The second call's output array after the run is what its write-backs leave. -/
theorem W3_v22 (c : Dev nD) : W3 m c main_v22 = (dat1 (V2 m) c).arrAt 2 cfg1.N :=
  W3_arr m c 2
/-- The regularisation term's buffer is untouched by both calls. -/
theorem W3_v20 (c : Dev nD) : W3 m c main_v20 = W1 m c main_v20 :=
  (W3_of_ne m c main_v20 (by decide)).trans (W2_of_ne m c main_v20 (by decide))
/-- The arrays the second call reads are the arguments as launched. -/
theorem V2_main_arg0 (c : Dev nD) : V2 m c main_arg0 = m ((c : Thread nD τ).loc main_arg0) :=
  ((W2_arr m c 0).trans (((dat0 (V1 m) c).arrAt_in 0 rfl _).trans (A_eq0 (V1 m) c 0))).trans
    (StableHlo.after_of_writes_sub hostOps0 _ hostOps0_writes (by decide : main_arg0 ∉ hostOps0_W))
theorem V2_main_arg1 (c : Dev nD) : V2 m c main_arg1 = m ((c : Thread nD τ).loc main_arg1) :=
  ((W2_arr m c 1).trans (((dat0 (V1 m) c).arrAt_in 1 rfl _).trans (A_eq0 (V1 m) c 1))).trans
    (StableHlo.after_of_writes_sub hostOps0 _ hostOps0_writes (by decide : main_arg1 ∉ hostOps0_W))
theorem V1_main_arg0 (c : Dev nD) : V1 m c main_arg0 = m ((c : Thread nD τ).loc main_arg0) :=
  StableHlo.after_of_writes_sub hostOps0 _ hostOps0_writes (by decide : main_arg0 ∉ hostOps0_W)
theorem V1_main_arg1 (c : Dev nD) : V1 m c main_arg1 = m ((c : Thread nD τ).loc main_arg1) :=
  StableHlo.after_of_writes_sub hostOps0 _ hostOps0_writes (by decide : main_arg1 ∉ hostOps0_W)

end Cert.KernelIdeal.Hand

end
-- ==== Proof.KIPieces.lean ====
/-
  What the body's stores amount to, case by case: every store goes through the whole buffer (zero offsets), so the
  last store's payload is what the buffer holds, and a load of a buffer just stored reads that payload. Hence after
  every point the scratch holds the update of its previous contents by the point's two input blocks (previous contents
  +∞ at the first column tile), and at the last column tile the output block receives the same.
-/
import proofs.«170943_j75333726372154_1_alg».proof.Proof.KIReg0Body
import proofs.«170943_j75333726372154_1_alg».proof.Proof.KIReg1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first call -/

/-- At the first column tile the scratch ends at the update of a block of +∞: the body stores +∞, reads it back, and
    stores the update. -/
theorem scratch0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i) (x0 x1 : Vec F S8x512x3 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x512) hz2, View.readCov_unit_zero (S := S8x512) _ hz2]
  simp only [View.readAt_eq_ld, harg2.read_unread, harg3.read_unread, harg5.read_unread, View.ld_unit_zero (S := S8x512x3) hz3, View.ld_unit_zero (S := S8x512) hz2]

/-- At a middle column tile the scratch ends at the update of what it held. -/
theorem scratch0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i) (x0 x1 : Vec F S8x512x3 .f32) (xs0 : Vec F S8x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S8x512x3) hz3, View.ld_unit_zero (S := S8x512) hz2]

/-- At the last column tile likewise, -/
theorem scratch0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 x1 : Vec F S8x512x3 .f32) (xs0 : Vec F S8x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S8x512x3) hz3, View.ld_unit_zero (S := S8x512) hz2]

/-- and the output block receives the scratch read back: the same update. -/
theorem output0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 x1 : Vec F S8x512x3 .f32) (xs0 : Vec F S8x512 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S8x512) _ hz2]
  simp only [View.readAt_eq_ld, harg2.read_unread, harg3.read_unread, harg5.read_unread, View.ld_unit_zero (S := S8x512x3) hz3, View.ld_unit_zero (S := S8x512) hz2]

/-! ## The second call -/

/-- At the first column tile the scratch ends at the update of a block of +∞: the body stores +∞, reads it back, and
    stores the update. -/
theorem scratch1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i) (x0 x1 : Vec F S8x512x3 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S8x512) hz2, View.readCov_unit_zero (S := S8x512) _ hz2]
  simp only [View.readAt_eq_ld, harg2.read_unread, harg3.read_unread, harg5.read_unread, View.ld_unit_zero (S := S8x512x3) hz3, View.ld_unit_zero (S := S8x512) hz2]

/-- At a middle column tile the scratch ends at the update of what it held. -/
theorem scratch1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i) (x0 x1 : Vec F S8x512x3 .f32) (xs0 : Vec F S8x512 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz2]
  simp only [View.readAt_eq_ld, harg2.read_unread, harg3.read_unread, harg5.read_unread, View.ld_unit_zero (S := S8x512x3) hz3, View.ld_unit_zero (S := S8x512) hz2]

/-- At the last column tile likewise, -/
theorem scratch1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 x1 : Vec F S8x512x3 .f32) (xs0 : Vec F S8x512 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg5.read_unread, View.ld_unit_zero (S := S8x512x3) hz3, View.ld_unit_zero (S := S8x512) hz2]

/-- and the output block receives the scratch read back: the same update. -/
theorem output1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 x1 : Vec F S8x512x3 .f32) (xs0 : Vec F S8x512 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz2, View.readCov_unit_zero (S := S8x512) _ hz2]
  simp only [View.readAt_eq_ld, harg2.read_unread, harg3.read_unread, harg5.read_unread, View.ld_unit_zero (S := S8x512x3) hz3, View.ld_unit_zero (S := S8x512) hz2]

end Cert.KernelIdeal.Hand

end
-- ==== Proof.KIBlocks.lean ====
/-
  The two nearest-neighbour calls' windows, read by coordinates.

  Each call runs over an 8 × 8 grid of points t = 8·n + m (row tile n, column tile m). Its first input's block at t is
  rows 512·n … 512·n + 511 of that input's [8, 4096, 3] array, its second input's block rows 512·m … 512·m + 511 of the
  other's, and its output block, written back only at m = 7, is columns 512·n … 512·n + 511 of the [8, 4096] result.
  A block's coordinate is always block index × block size + 1 × the coordinate inside the block; the block indices
  are decided once over the grid. The eight written-back blocks tile the result array, so the array ends holding
  whatever single array agrees with each written-back block on its columns.
-/
import proofs.«170943_j75333726372154_1_alg».proof.Proof.KIReg0Body
import proofs.«170943_j75333726372154_1_alg».proof.Proof.KIReg1Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when a region is entered
variable (V : (c : Dev nD) → (b : Ref sig .tc) → Buf (Elt F) ((c : Thread nD τ).loc b))

/-! ## Call 0: the blocks of its three windows -/

/-- The printed index maps of call 0, decided over its 64 grid points (point t = 8·n + m): the first input's
    block is row tile n, the second's row tile m, the output's column tile n; the other block indices are 0. -/
theorem idx_facts0 : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

/-- The first input window's block at point t: rows 512·n … 512·n + 511 of its array, n = t / 8. -/
theorem iblk0_x (c : Dev nD) (t : Fin cfg0.N) (b : Fin 8) (r : Fin 512) (d : Fin 3) :
    iblk0 V c 0 t (ix3 b r d)
      = V c main_arg0 (ix3 b ⟨512 * (t.val / 8) + r.val, by have := t.isLt; have := r.isLt; have : cfg0.N = 64 := N_0; omega⟩ d) := by
  obtain ⟨e0, e1, e2, -, -, -, -, -⟩ := idx_facts0 t
  unfold iblk0
  rw [View.read_apply]
  show V c main_arg0 _ = V c main_arg0 _
  congr 1
  funext a
  apply Fin.ext
  match a with
  | ⟨0, _⟩ => show win0_0.index t (0 : Fin 3) * 8 + 1 * b.val = b.val; rw [e0]; omega
  | ⟨1, _⟩ => show win0_0.index t (1 : Fin 3) * 512 + 1 * r.val = 512 * (t.val / 8) + r.val; rw [e1]; omega
  | ⟨2, _⟩ => show win0_0.index t (2 : Fin 3) * 3 + 1 * d.val = d.val; rw [e2]; omega

/-- The second input window's block at point t: rows 512·m … 512·m + 511 of its array, m = t mod 8. -/
theorem iblk0_y (c : Dev nD) (t : Fin cfg0.N) (b : Fin 8) (l : Fin 512) (d : Fin 3) :
    iblk0 V c 1 t (ix3 b l d)
      = V c main_arg1 (ix3 b ⟨512 * (t.val % 8) + l.val, by have := l.isLt; omega⟩ d) := by
  obtain ⟨-, -, -, e0, e1, e2, -, -⟩ := idx_facts0 t
  unfold iblk0
  rw [View.read_apply]
  show V c main_arg1 _ = V c main_arg1 _
  congr 1
  funext a
  apply Fin.ext
  match a with
  | ⟨0, _⟩ => show win0_1.index t (0 : Fin 3) * 8 + 1 * b.val = b.val; rw [e0]; omega
  | ⟨1, _⟩ => show win0_1.index t (1 : Fin 3) * 512 + 1 * l.val = 512 * (t.val % 8) + l.val; rw [e1]; omega
  | ⟨2, _⟩ => show win0_1.index t (2 : Fin 3) * 3 + 1 * d.val = d.val; rw [e2]; omega

/-! ## Call 1: the blocks of its three windows -/

/-- The printed index maps of call 1, decided over its 64 grid points (point t = 8·n + m): the first input's
    block is row tile n, the second's row tile m, the output's column tile n; the other block indices are 0. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, _)

/-- The first input window's block at point t: rows 512·n … 512·n + 511 of its array, n = t / 8. -/
theorem iblk1_x (c : Dev nD) (t : Fin cfg1.N) (b : Fin 8) (r : Fin 512) (d : Fin 3) :
    iblk1 V c 0 t (ix3 b r d)
      = V c main_arg1 (ix3 b ⟨512 * (t.val / 8) + r.val, by have := t.isLt; have := r.isLt; have : cfg1.N = 64 := N_1; omega⟩ d) := by
  obtain ⟨e0, e1, e2, -, -, -, -, -⟩ := idx_facts1 t
  unfold iblk1
  rw [View.read_apply]
  show V c main_arg1 _ = V c main_arg1 _
  congr 1
  funext a
  apply Fin.ext
  match a with
  | ⟨0, _⟩ => show win1_0.index t (0 : Fin 3) * 8 + 1 * b.val = b.val; rw [e0]; omega
  | ⟨1, _⟩ => show win1_0.index t (1 : Fin 3) * 512 + 1 * r.val = 512 * (t.val / 8) + r.val; rw [e1]; omega
  | ⟨2, _⟩ => show win1_0.index t (2 : Fin 3) * 3 + 1 * d.val = d.val; rw [e2]; omega

/-- The second input window's block at point t: rows 512·m … 512·m + 511 of its array, m = t mod 8. -/
theorem iblk1_y (c : Dev nD) (t : Fin cfg1.N) (b : Fin 8) (l : Fin 512) (d : Fin 3) :
    iblk1 V c 1 t (ix3 b l d)
      = V c main_arg0 (ix3 b ⟨512 * (t.val % 8) + l.val, by have := l.isLt; omega⟩ d) := by
  obtain ⟨-, -, -, e0, e1, e2, -, -⟩ := idx_facts1 t
  unfold iblk1
  rw [View.read_apply]
  show V c main_arg0 _ = V c main_arg0 _
  congr 1
  funext a
  apply Fin.ext
  match a with
  | ⟨0, _⟩ => show win1_1.index t (0 : Fin 3) * 8 + 1 * b.val = b.val; rw [e0]; omega
  | ⟨1, _⟩ => show win1_1.index t (1 : Fin 3) * 512 + 1 * l.val = 512 * (t.val % 8) + l.val; rw [e1]; omega
  | ⟨2, _⟩ => show win1_1.index t (2 : Fin 3) * 3 + 1 * d.val = d.val; rw [e2]; omega

/-! ## Call 0: from the written-back blocks to the output array -/

/-- An index of the output array is in point t's block iff each coordinate is in the block's range on its axis. -/
theorem mem_blk0 (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v21).slice (win0_2.rect t)).set ↔ _
  rw [View.set_slice_whole, Rect.mem_set_unit]
  exact Iff.rfl

/-- THE OUTPUT ARRAY after call 0. The output block is written back only at the last column tile (t mod 8 = 7); if at
    each such point the block holds columns 512·n … 512·n + 511 of one [8, 4096] array G (n = t / 8), the array ends
    holding G: the eight written-back blocks tile it, the one covering column q is the point 8·(q / 512) + 7. -/
theorem arr0_eq (c : Dev nD) (G : S8x4096.Idx → Elt F .f32)
    (h : ∀ t : Fin cfg0.N, t.val % 8 = 7 → ∀ (b : Fin 8) (r : Fin 512),
      (outsAt0 V c t.val t.isLt).1 (ix2 b r)
        = G (ix2 b ⟨512 * (t.val / 8) + r.val, by have := t.isLt; have := r.isLt; have : cfg0.N = 64 := N_0; omega⟩)) :
    (dat0 V c).arrAt 2 cfg0.N = G := by
  refine (dat0 V c).arrAt_eq_of_cover 2 G (fun t hf => ?_) (fun i => ?_)
  · have h7 : t.val % 8 = 7 := (flush0_2 t).mp hf
    obtain ⟨-, -, -, -, -, -, e0, e1⟩ := idx_facts0 t
    show (cfg0.win 2).cut (grid0.coords t) ((dat0 V c).after 2 t) = _
    rw [after0_2]
    funext j
    obtain ⟨b, r, rfl⟩ : ∃ (b : Fin 8) (r : Fin 512), j = ix2 b r := ⟨j 0, j 1, eq_ix2 j⟩
    rw [View.read_apply]
    refine (h t h7 b r).trans ?_
    show G _ = G _
    congr 1
    funext a
    apply Fin.ext
    match a with
    | ⟨0, _⟩ => show b.val = win0_2.index t (0 : Fin 2) * 8 + 1 * b.val; rw [e0]; omega
    | ⟨1, _⟩ => show 512 * (t.val / 8) + r.val = win0_2.index t (1 : Fin 2) * 512 + 1 * r.val; rw [e1]; omega
  · have hi0 : (i 0).val < 8 := (i 0).isLt
    have hi1 : (i 1).val < 4096 := (i 1).isLt
    have hN : cfg0.N = 64 := N_0
    let t : Fin cfg0.N := ⟨8 * ((i 1).val / 512) + 7, by omega⟩
    have htv : t.val = 8 * ((i 1).val / 512) + 7 := rfl
    obtain ⟨-, -, -, -, -, -, e0, e1⟩ := idx_facts0 t
    refine ⟨t, (flush0_2 t).mpr (by omega), ?_⟩
    rw [mem_blk0]
    intro a
    match a with
    | ⟨0, _⟩ => show win0_2.index t (0 : Fin 2) * 8 ≤ (i 0).val ∧ (i 0).val < win0_2.index t (0 : Fin 2) * 8 + 8; rw [e0]; omega
    | ⟨1, _⟩ => show win0_2.index t (1 : Fin 2) * 512 ≤ (i 1).val ∧ (i 1).val < win0_2.index t (1 : Fin 2) * 512 + 512; rw [e1]; omega

/-! ## Call 1: from the written-back blocks to the output array -/

/-- An index of the output array is in point t's block iff each coordinate is in the block's range on its axis. -/
theorem mem_blk1 (t : Fin cfg1.N) (i : S8x4096.Idx) :
    i ∈ ((cfg1.win 2).blk t).view.set ↔ ∀ a : Fin 2, win1_2.index t a * S8x512.size a ≤ (i a).val ∧ (i a).val < win1_2.index t a * S8x512.size a + S8x512.size a := by
  show i ∈ ((View.whole main_v22).slice (win1_2.rect t)).set ↔ _
  rw [View.set_slice_whole, Rect.mem_set_unit]
  exact Iff.rfl

/-- THE OUTPUT ARRAY after call 1. The output block is written back only at the last column tile (t mod 8 = 7); if at
    each such point the block holds columns 512·n … 512·n + 511 of one [8, 4096] array G (n = t / 8), the array ends
    holding G: the eight written-back blocks tile it, the one covering column q is the point 8·(q / 512) + 7. -/
theorem arr1_eq (c : Dev nD) (G : S8x4096.Idx → Elt F .f32)
    (h : ∀ t : Fin cfg1.N, t.val % 8 = 7 → ∀ (b : Fin 8) (r : Fin 512),
      (outsAt1 V c t.val t.isLt).1 (ix2 b r)
        = G (ix2 b ⟨512 * (t.val / 8) + r.val, by have := t.isLt; have := r.isLt; have : cfg1.N = 64 := N_1; omega⟩)) :
    (dat1 V c).arrAt 2 cfg1.N = G := by
  refine (dat1 V c).arrAt_eq_of_cover 2 G (fun t hf => ?_) (fun i => ?_)
  · have h7 : t.val % 8 = 7 := (flush1_2 t).mp hf
    obtain ⟨-, -, -, -, -, -, e0, e1⟩ := idx_facts1 t
    show (cfg1.win 2).cut (grid1.coords t) ((dat1 V c).after 2 t) = _
    rw [after1_2]
    funext j
    obtain ⟨b, r, rfl⟩ : ∃ (b : Fin 8) (r : Fin 512), j = ix2 b r := ⟨j 0, j 1, eq_ix2 j⟩
    rw [View.read_apply]
    refine (h t h7 b r).trans ?_
    show G _ = G _
    congr 1
    funext a
    apply Fin.ext
    match a with
    | ⟨0, _⟩ => show b.val = win1_2.index t (0 : Fin 2) * 8 + 1 * b.val; rw [e0]; omega
    | ⟨1, _⟩ => show 512 * (t.val / 8) + r.val = win1_2.index t (1 : Fin 2) * 512 + 1 * r.val; rw [e1]; omega
  · have hi0 : (i 0).val < 8 := (i 0).isLt
    have hi1 : (i 1).val < 4096 := (i 1).isLt
    have hN : cfg1.N = 64 := N_1
    let t : Fin cfg1.N := ⟨8 * ((i 1).val / 512) + 7, by omega⟩
    have htv : t.val = 8 * ((i 1).val / 512) + 7 := rfl
    obtain ⟨-, -, -, -, -, -, e0, e1⟩ := idx_facts1 t
    refine ⟨t, (flush1_2 t).mpr (by omega), ?_⟩
    rw [mem_blk1]
    intro a
    match a with
    | ⟨0, _⟩ => show win1_2.index t (0 : Fin 2) * 8 ≤ (i 0).val ∧ (i 0).val < win1_2.index t (0 : Fin 2) * 8 + 8; rw [e0]; omega
    | ⟨1, _⟩ => show win1_2.index t (1 : Fin 2) * 512 ≤ (i 1).val ∧ (i 1).val < win1_2.index t (1 : Fin 2) * 512 + 512; rw [e1]; omega

end Cert.KernelIdeal.Hand

end
-- ==== Proof.Spec.lean ====
/-
  The chamfer specification, over the extended reals.

  For two clouds x, y : [8, 4096, 3] (eight batches of 4096 points of ℝ³, entries extended reals) the squared
  distance between point n of x and point m of y in batch b, in the expanded form
      d2 x y b n m = (|x_n|² + |y_m|²) − 2 · ⟨x_n, y_m⟩ ,
  and nearest x y : [8, 4096], which at (b, n) is the minimum over m of d2 x y b n m, started from +∞.
  The two directions of the chamfer distance are nearest x y and nearest y x; the second is also the minimum
  over the FIRST point index of d2 x y (d2_swap: addition and multiplication on the extended reals commute;
  no entry needs to be finite).

  Then the order facts a tiled evaluation rests on, over an abstract row f : Fin 4096 → EReal: the minimum
  over the 4096 columns is the minimum over eight tiles of the minimum over each tile's 512 columns
  (fold_tiles), and a running minimum that starts at +∞ and takes in one tile's minimum at a time has seen,
  after tile k, exactly the columns below 512 · (k + 1) (fold_below_succ, running_min).
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Chamfer

/-- A cloud: eight batches of 4096 points with three coordinates. -/
abbrev T3 : Shape := ⟨3, ![8, 4096, 3]⟩
/-- One value per batch and point. -/
abbrev T2 : Shape := ⟨2, ![8, 4096]⟩

/-! ## Two bit patterns as extended reals -/

/-- The f32 pattern of +∞ is the top of the extended reals. -/
theorem ofBits_inf_f32 : Ideal.ofBits .f32 0x7F800000#32 = (⊤ : EReal) := by
  simp [Ideal.ofBits, Ideal.ieee]

/-- The f32 pattern of zero is zero (the library's lemma, under this namespace's name). -/
theorem ofBits_zero_f32 : Ideal.ofBits .f32 0x00000000#32 = (0 : EReal) := Ideal.ofBits_zero_f32

/-! ## The squared distance and the nearest-neighbour minimum -/

/-- The squared norm of point n of batch b: the sum of the squares of its three coordinates. -/
def sqn (x : T3.Idx → EReal) (b : Fin 8) (n : Fin 4096) : EReal :=
  ∑ d : Fin 3, x (ix3 b n d) * x (ix3 b n d)

/-- The inner product of point n of x and point m of y in batch b. -/
def dotp (x y : T3.Idx → EReal) (b : Fin 8) (n m : Fin 4096) : EReal :=
  ∑ d : Fin 3, x (ix3 b n d) * y (ix3 b m d)

/-- The squared distance in expanded form, (|x_n|² + |y_m|²) − 2 · ⟨x_n, y_m⟩; the factor two is kept as the f32
    pattern of 2.0, which no law below evaluates. -/
def d2 (x y : T3.Idx → EReal) (b : Fin 8) (n m : Fin 4096) : EReal :=
  (sqn x b n + sqn y b m) - Ideal.ofBits .f32 0x40000000#32 * dotp x y b n m

/-- At (b, n): the least squared distance from point n of x to a point of y, from +∞. -/
def nearest (x y : T3.Idx → EReal) : T2.Idx → EReal := fun j =>
  (Finset.univ : Finset (Fin 4096)).fold min ⊤ fun m => d2 x y ⟨(j 0).val, (j 0).isLt⟩ ⟨(j 1).val, (j 1).isLt⟩ m

/-- nearest at explicit coordinates. -/
theorem nearest_ix2 (x y : T3.Idx → EReal) (b : Fin 8) (n : Fin 4096) :
    nearest x y (ix2 b n) = (Finset.univ : Finset (Fin 4096)).fold min ⊤ fun m => d2 x y b n m := rfl

/-- The inner product is symmetric. -/
theorem dotp_comm (x y : T3.Idx → EReal) (b : Fin 8) (n m : Fin 4096) : dotp y x b m n = dotp x y b n m :=
  Finset.sum_congr rfl fun _ _ => mul_comm _ _

/-- The squared distance does not depend on which cloud is named first. -/
theorem d2_swap (x y : T3.Idx → EReal) (b : Fin 8) (n m : Fin 4096) : d2 y x b m n = d2 x y b n m := by
  unfold d2
  rw [add_comm (sqn y b m) (sqn x b n), dotp_comm]

/-- So the other direction, nearest y x at (b, m), is the minimum of d2 x y over its FIRST point index. -/
theorem nearest_swap_ix2 (x y : T3.Idx → EReal) (b : Fin 8) (m : Fin 4096) :
    nearest y x (ix2 b m) = (Finset.univ : Finset (Fin 4096)).fold min ⊤ fun n => d2 x y b n m := by
  rw [nearest_ix2]
  exact Finset.fold_congr fun n _ => d2_swap x y b n m

/-! ## A minimum over 4096 columns, by tiles of 512 -/

/-- The minimum of tile k: columns 512 · k … 512 · k + 511. -/
def tileMin (f : Fin 4096 → EReal) (k : Fin 8) : EReal :=
  (Finset.univ : Finset (Fin 512)).fold min ⊤ fun l => f ⟨k.val * 512 + l.val, by have := k.isLt; have := l.isLt; omega⟩

/-- The minimum over all columns is the minimum over the tiles of each tile's minimum. -/
theorem fold_tiles (f : Fin 4096 → EReal) :
    ((Finset.univ : Finset (Fin 8)).fold min ⊤ fun j =>
      (Finset.univ : Finset (Fin 512)).fold min ⊤ fun l => f ⟨j.val * 512 + l.val, by have := j.isLt; have := l.isLt; omega⟩)
      = (Finset.univ : Finset (Fin 4096)).fold min ⊤ f := by
  refine le_antisymm ?_ ?_
  · refine (Finset.le_fold_min _).2 ⟨le_top, fun i _ => ?_⟩
    refine (Finset.fold_min_le _).2 (Or.inr ⟨⟨i.val / 512, by have := i.isLt; omega⟩, Finset.mem_univ _, ?_⟩)
    refine (Finset.fold_min_le _).2 (Or.inr ⟨⟨i.val % 512, Nat.mod_lt _ (by decide)⟩, Finset.mem_univ _, ?_⟩)
    exact le_of_eq (congrArg f (Fin.ext (by show i.val / 512 * 512 + i.val % 512 = i.val; omega)))
  · refine (Finset.le_fold_min _).2 ⟨le_top, fun j _ => (Finset.le_fold_min _).2 ⟨le_top, fun l _ => ?_⟩⟩
    exact (Finset.fold_min_le _).2 (Or.inr ⟨_, Finset.mem_univ _, le_rfl⟩)

/-- The same with the tile minimum named. -/
theorem fold_tileMin (f : Fin 4096 → EReal) :
    (Finset.univ : Finset (Fin 8)).fold min ⊤ (tileMin f) = (Finset.univ : Finset (Fin 4096)).fold min ⊤ f :=
  fold_tiles f

/-- The columns of the first k tiles. -/
def below (k : ℕ) : Finset (Fin 4096) := Finset.univ.filter fun m => m.val < 512 * k

theorem mem_below (k : ℕ) (m : Fin 4096) : m ∈ below k ↔ m.val < 512 * k := by
  simp [below]

/-- No tile: no column. -/
theorem below_zero : below 0 = ∅ := by
  ext m; simp [mem_below]

/-- All eight tiles: every column. -/
theorem below_eight : below 8 = Finset.univ := by
  ext m; simp only [mem_below, Finset.mem_univ, iff_true]; have := m.isLt; omega

/-- Before the first tile the minimum is +∞. -/
theorem fold_below_zero (f : Fin 4096 → EReal) : (below 0).fold min ⊤ f = ⊤ := by
  rw [below_zero, Finset.fold_empty]

/-- After the last tile it is the minimum over every column. -/
theorem fold_below_eight (f : Fin 4096 → EReal) :
    (below 8).fold min ⊤ f = (Finset.univ : Finset (Fin 4096)).fold min ⊤ f := by
  rw [below_eight]

/-- ONE STEP of the running minimum: the minimum over the first k tiles' columns, joined with tile k's minimum, is
    the minimum over the first k + 1 tiles' columns. -/
theorem fold_below_succ (f : Fin 4096 → EReal) (k : Fin 8) :
    min ((below k.val).fold min ⊤ f) (tileMin f k) = (below (k.val + 1)).fold min ⊤ f := by
  have hk := k.isLt
  refine le_antisymm ?_ ?_
  · refine (Finset.le_fold_min _).2 ⟨le_top, fun i hi => ?_⟩
    have hi' := (mem_below _ _).1 hi
    by_cases h : i.val < 512 * k.val
    · exact (min_le_left _ _).trans ((Finset.fold_min_le _).2 (Or.inr ⟨i, (mem_below _ _).2 h, le_rfl⟩))
    · refine (min_le_right _ _).trans ?_
      refine (Finset.fold_min_le _).2 (Or.inr ⟨⟨i.val - k.val * 512, by omega⟩, Finset.mem_univ _, ?_⟩)
      exact le_of_eq (congrArg f (Fin.ext (by show k.val * 512 + (i.val - k.val * 512) = i.val; omega)))
  · refine le_min ?_ ?_
    · refine (Finset.le_fold_min _).2 ⟨le_top, fun i hi => ?_⟩
      have hi' := (mem_below _ _).1 hi
      exact (Finset.fold_min_le _).2 (Or.inr ⟨i, (mem_below _ _).2 (by omega), le_rfl⟩)
    · refine (Finset.le_fold_min _).2 ⟨le_top, fun l _ => ?_⟩
      have hl := l.isLt
      exact (Finset.fold_min_le _).2 (Or.inr ⟨_, (mem_below _ _).2 (by show k.val * 512 + l.val < 512 * (k.val + 1); omega), le_rfl⟩)

/-- The first step, from +∞. -/
theorem fold_below_one (f : Fin 4096 → EReal) : min ⊤ (tileMin f 0) = (below 1).fold min ⊤ f := by
  have h := fold_below_succ f 0
  rwa [show ((0 : Fin 8).val) = 0 from rfl, fold_below_zero] at h

/-- THE RUNNING MINIMUM: a sequence that starts at +∞ joined with tile 0's minimum and joins tile k + 1's minimum at
    step k + 1 holds, after step k, the minimum over the columns of tiles 0 … k … -/
theorem running_min_below (f : Fin 4096 → EReal) (acc : ℕ → EReal)
    (h0 : acc 0 = min ⊤ (tileMin f 0))
    (hs : ∀ (k : ℕ) (hk : k + 1 < 8), acc (k + 1) = min (acc k) (tileMin f ⟨k + 1, hk⟩)) :
    ∀ k : ℕ, k < 8 → acc k = (below (k + 1)).fold min ⊤ f := by
  intro k
  induction k with
  | zero => intro _; rw [h0]; exact fold_below_one f
  | succ k ih =>
    intro hk
    rw [hs k hk, ih (by omega)]
    exact fold_below_succ f ⟨k + 1, hk⟩

/-- … and after the eighth, the minimum over every column. -/
theorem running_min (f : Fin 4096 → EReal) (acc : ℕ → EReal)
    (h0 : acc 0 = min ⊤ (tileMin f 0))
    (hs : ∀ (k : ℕ) (hk : k + 1 < 8), acc (k + 1) = min (acc k) (tileMin f ⟨k + 1, hk⟩)) :
    acc 7 = (Finset.univ : Finset (Fin 4096)).fold min ⊤ f := by
  rw [running_min_below f acc h0 hs 7 (by decide)]
  exact fold_below_eight f

end Cert.Chamfer

end
-- ==== Proof.Payload.lean ====
/-
  The kernel body's two payloads read at an index, at the ideal values.

  The first payload is the splat of +∞ under a trivial shape cast: it reads ⊤ everywhere. The second is, at
  (b, r), the minimum of the accumulator there and of the minimum over the 512 columns l of the tile's term
      (Σ_d x0[b,r,d]² + Σ_d x1[b,l,d]²) − 2 · Σ_d x0[b,r,d] · x1[b,l,d] ,
  from +∞: each non-pointwise operation of the payload (the two sums of squares over the last axis, the two
  unit-axis shape casts and the two broadcasts that lay them along rows and columns, the batched product of
  the narrowed operands, the minimum over the last axis) is read at an index by a lemma of its own, and the
  payload's term is their composition.
-/
import proofs.«170943_j75333726372154_1_alg».proof.Proof.Gen.KernelIdeal.Skeleton
import proofs.«170943_j75333726372154_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators
open Idealize.ShloMosaic Idealize.ShloMosaic.ValueIdx Idealize.SL.Sem
open Cert.KernelIdeal Cert.KernelIdeal.Gen

namespace Cert.KernelIdeal.Pay

/-! ## The reductions over the last axis -/

/-- Over result index (b, r), the source index of a rank-3 array with coordinate k on the dropped last axis
    is (b, r, k). -/
theorem lift_last {n0 n1 n2 : ℕ} (h : (⟨3, ![n0, n1, n2]⟩ : Shape).Reduces [2] ⟨2, ![n0, n1]⟩)
    (b : Fin n0) (r : Fin n1) (k : Fin n2) : h.lift (ix2 b r) k = ix3 b r k :=
  funext fun a => Fin.ext (by match a with | ⟨0, _⟩ => rfl | ⟨1, _⟩ => rfl | ⟨2, _⟩ => rfl)

/-- A minimum reduction over one axis, at the ideal values: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of squares over the three coordinates of point (b, r). -/
theorem sumsq_apply (x : FVec Ideal S8x512x3 .f32) (b : Fin 8) (r : Fin 512) :
    multiReduction (F := Ideal) .add [2] S8x512 (mulf x x) 0x00000000#32 reduces_S8x512x3_S8x512 (.inl rfl) rfl (ix2 b r)
      = ∑ d : Fin 3, x (ix3 b r d) * x (ix3 b r d) := by
  refine (Ideal.multiReduction_add_single (mulf x x) 0x00000000#32 reduces_S8x512x3_S8x512 (.inl rfl) rfl (ix2 b r)).trans ?_
  refine Finset.sum_congr rfl fun d _ => ?_
  rw [lift_last reduces_S8x512x3_S8x512 b r d]
  rfl

/-- The minimum over the 512 columns of row (b, r), from +∞. -/
theorem minLast_apply (v : FVec Ideal S8x512x512 .f32) (b : Fin 8) (r : Fin 512) :
    multiReduction (F := Ideal) .minimumf [2] S8x512 v 0x7F800000#32 reduces_S8x512x512_S8x512 (.inl rfl) rfl (ix2 b r)
      = (Finset.univ : Finset (Fin 512)).fold min ⊤ fun l => v (ix3 b r l) := by
  refine (multiReduction_minimumf_single v 0x7F800000#32 reduces_S8x512x512_S8x512 (.inl rfl) rfl (ix2 b r)).trans ?_
  show (Finset.univ : Finset (Fin 512)).fold min (Ideal.ofBits .f32 0x7F800000#32) _ = _
  rw [Cert.Chamfer.ofBits_inf_f32]
  refine congrArg (fun f => (Finset.univ : Finset (Fin 512)).fold min ⊤ f) (funext fun l => ?_)
  show v (reduces_S8x512x512_S8x512.lift (ix2 b r) l) = v (ix3 b r l)
  rw [lift_last reduces_S8x512x512_S8x512 b r l]

/-! ## The unit-axis shape casts and the broadcasts along rows and columns -/

/-- An [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column [8, 512, 1] broadcast to [8, 512, 512] reads, at (b, r, l), the column at (b, r). -/
theorem broadcastCol_apply {α : Type} (v : S8x512x1.Idx → α) (b : Fin 8) (r l : Fin 512) :
    broadcastTo S8x512x512 v broadcasts_S8x512x1_S8x512x512 (ix3 b r l) = v (ix3 b r (0 : Fin 1)) :=
  broadcastTo_apply v broadcasts_S8x512x1_S8x512x512 (ix3 b r l) (ix3 b r (0 : Fin 1)) fun ax =>
    match ax with
    | ⟨0, _⟩ => rfl
    | ⟨1, _⟩ => rfl
    | ⟨2, _⟩ => rfl

/-- A row [8, 1, 512] broadcast to [8, 512, 512] reads, at (b, r, l), the row at (b, l). -/
theorem broadcastRow_apply {α : Type} (v : S8x1x512.Idx → α) (b : Fin 8) (r l : Fin 512) :
    broadcastTo S8x512x512 v broadcasts_S8x1x512_S8x512x512 (ix3 b r l) = v (ix3 b (0 : Fin 1) l) :=
  broadcastTo_apply v broadcasts_S8x1x512_S8x512x512 (ix3 b r l) (ix3 b (0 : Fin 1) l) fun ax =>
    match ax with
    | ⟨0, _⟩ => rfl
    | ⟨1, _⟩ => rfl
    | ⟨2, _⟩ => rfl

/-! ## The batched product at an index -/

/-- The left operand's index at output (b, r, l) and contraction position q: batch b … -/
theorem lhs_0 (i : S8x512x512.Idx) (q : dot_S8x512x3_S8x512x3_S8x512x512_2_2_1_1_0_0.contr.Idx) :
    (dot_S8x512x3_S8x512x3_S8x512x512_2_2_1_1_0_0.lhsIdx i q 0).val = (i 0).val := by
  unfold DotDims.lhsIdx
  rw [dif_pos (show (0 : Fin S8x512x3.rank) ∈ dot_S8x512x3_S8x512x3_S8x512x512_2_2_1_1_0_0.lhsBatch by decide)]
  rfl
/-- … row r … -/
theorem lhs_1 (i : S8x512x512.Idx) (q : dot_S8x512x3_S8x512x3_S8x512x512_2_2_1_1_0_0.contr.Idx) :
    (dot_S8x512x3_S8x512x3_S8x512x512_2_2_1_1_0_0.lhsIdx i q 1).val = (i 1).val := by
  unfold DotDims.lhsIdx
  rw [dif_neg (show ¬(1 : Fin S8x512x3.rank) ∈ dot_S8x512x3_S8x512x3_S8x512x512_2_2_1_1_0_0.lhsBatch by decide), dif_pos (show (1 : Fin S8x512x3.rank) ∈ dot_S8x512x3_S8x512x3_S8x512x512_2_2_1_1_0_0.lhsNonContracting by decide)]
  rfl
/-- … and the contraction position's one coordinate. -/
theorem lhs_2 (i : S8x512x512.Idx) (q : dot_S8x512x3_S8x512x3_S8x512x512_2_2_1_1_0_0.contr.Idx) :
    (dot_S8x512x3_S8x512x3_S8x512x512_2_2_1_1_0_0.lhsIdx i q 2).val = (q ⟨0, by decide⟩).val :=
  dot_S8x512x3_S8x512x3_S8x512x512_2_2_1_1_0_0.lhsIdx_val_of_single rfl i q
/-- The right operand's index: batch b … -/
theorem rhs_0 (i : S8x512x512.Idx) (q : dot_S8x512x3_S8x512x3_S8x512x512_2_2_1_1_0_0.contr.Idx) :
    (dot_S8x512x3_S8x512x3_S8x512x512_2_2_1_1_0_0.rhsIdx i q 0).val = (i 0).val := by
  unfold DotDims.rhsIdx
  rw [dif_pos (show (0 : Fin S8x512x3.rank) ∈ dot_S8x512x3_S8x512x3_S8x512x512_2_2_1_1_0_0.rhsBatch by decide)]
  rfl
/-- … column l … -/
theorem rhs_1 (i : S8x512x512.Idx) (q : dot_S8x512x3_S8x512x3_S8x512x512_2_2_1_1_0_0.contr.Idx) :
    (dot_S8x512x3_S8x512x3_S8x512x512_2_2_1_1_0_0.rhsIdx i q 1).val = (i 2).val := by
  unfold DotDims.rhsIdx
  rw [dif_neg (show ¬(1 : Fin S8x512x3.rank) ∈ dot_S8x512x3_S8x512x3_S8x512x512_2_2_1_1_0_0.rhsBatch by decide), dif_pos (show (1 : Fin S8x512x3.rank) ∈ dot_S8x512x3_S8x512x3_S8x512x512_2_2_1_1_0_0.rhsNonContracting by decide)]
  rfl
/-- … and the contraction position's one coordinate. -/
theorem rhs_2 (i : S8x512x512.Idx) (q : dot_S8x512x3_S8x512x3_S8x512x512_2_2_1_1_0_0.contr.Idx) :
    (dot_S8x512x3_S8x512x3_S8x512x512_2_2_1_1_0_0.rhsIdx i q 2).val = (q ⟨0, by decide⟩).val :=
  dot_S8x512x3_S8x512x3_S8x512x512_2_2_1_1_0_0.rhsIdx_val_of_single rfl i q

/-- The product of the narrowed operands into the zero splat, at (b, r, l): the inner product over the three
    coordinates of point r of the left operand and point l of the right one, in batch b (narrowing is the identity
    at the ideal values). -/
theorem matmul_ix3_apply (x0 x1 : FVec Ideal S8x512x3 .f32) (b : Fin 8) (r l : Fin 512) :
    matmul (F := Ideal) dot_S8x512x3_S8x512x3_S8x512x512_2_2_1_1_0_0 none (truncf .bf16 x0 bitsLt_bf16_f32) (truncf .bf16 x1 bitsLt_bf16_f32)
        (constant (F := Ideal) S8x512x512 .f32 0x00000000#32) (ix3 b r l)
      = ∑ d : Fin 3, x0 (ix3 b r d) * x1 (ix3 b l d) := by
  simp only [matmul]
  rw [Ideal.matmul_constant_zero_apply, ← Equiv.sum_comp (contrEquiv1 dot_S8x512x3_S8x512x3_S8x512x512_2_2_1_1_0_0 3 rfl rfl).symm]
  refine Finset.sum_congr rfl fun k _ => ?_
  have hk := contrEquiv1_symm_val dot_S8x512x3_S8x512x3_S8x512x512_2_2_1_1_0_0 3 rfl rfl k
  have el : dot_S8x512x3_S8x512x3_S8x512x512_2_2_1_1_0_0.lhsIdx (ix3 b r l) ((contrEquiv1 dot_S8x512x3_S8x512x3_S8x512x512_2_2_1_1_0_0 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S8x512x3_S8x512x3_S8x512x512_2_2_1_1_0_0.rhsIdx (ix3 b r l) ((contrEquiv1 dot_S8x512x3_S8x512x3_S8x512x512_2_2_1_1_0_0 3 rfl rfl).symm k) = ix3 b l k := funext fun a => Fin.ext (by
    match a with
    | ⟨0, _⟩ => exact rhs_0 _ _
    | ⟨1, _⟩ => exact rhs_1 _ _
    | ⟨2, _⟩ => exact (rhs_2 _ _).trans hk)
  rw [el, er]
  rfl

/-! ## The payloads at an index -/

/-- The tile's term at row r and column l of batch b: the two squared norms less twice the inner product, the
    factor two kept as the f32 pattern of 2.0. -/
def tileTerm (x0 x1 : Vec Ideal S8x512x3 .f32) (b : Fin 8) (r l : Fin 512) : EReal :=
  ((∑ d : Fin 3, x0 (ix3 b r d) * x0 (ix3 b r d)) + (∑ d : Fin 3, x1 (ix3 b l d) * x1 (ix3 b l d)))
    - Ideal.ofBits .f32 0x40000000#32 * (∑ d : Fin 3, x0 (ix3 b r d) * x1 (ix3 b l d))

/-- The splat of +∞ under the trivial shape cast reads ⊤ at every index. -/
theorem pay1_apply (j : S8x512.Idx) : k0_pay1 (F := Ideal) j = (⊤ : EReal) := by
  unfold k0_pay1
  simp only [shapeCast_self]
  exact Cert.Chamfer.ofBits_inf_f32

/-- The second payload at (b, r): the accumulator there against the minimum, over the tile's 512 columns, of the
    tile's term, from +∞. -/
theorem pay2_apply (x0 x1 : Vec Ideal S8x512x3 .f32) (acc : Vec Ideal S8x512 .f32) (b : Fin 8) (r : Fin 512) :
    k0_pay2 (F := Ideal) x0 x1 acc (ix2 b r)
      = min (acc (ix2 b r)) ((Finset.univ : Finset (Fin 512)).fold min ⊤ fun l => tileTerm x0 x1 b r l) := by
  unfold k0_pay2
  simp only [shapeCast_self]
  rw [minimumf_apply, minLast_apply]
  refine congrArg (min _) (congrArg (fun f => (Finset.univ : Finset (Fin 512)).fold min ⊤ f) (funext fun l => ?_))
  rw [subf_apply, addf_apply, broadcastCol_apply, broadcastRow_apply, shapeCast_ab_ab1_apply, shapeCast_ab_a1b_apply,
    sumsq_apply, sumsq_apply, mulf_apply, broadcast_apply, matmul_ix3_apply]
  rfl

/-! ## The second kernel function's payloads: the same terms -/

/-- The splat of +∞ under the trivial shape cast reads ⊤ at every index. -/
theorem pay1_apply' (j : S8x512.Idx) : k1_pay1 (F := Ideal) j = (⊤ : EReal) := by
  unfold k1_pay1
  simp only [shapeCast_self]
  exact Cert.Chamfer.ofBits_inf_f32

/-- The second payload at (b, r): the accumulator there against the minimum, over the tile's 512 columns, of the
    tile's term, from +∞. -/
theorem pay2_apply' (x0 x1 : Vec Ideal S8x512x3 .f32) (acc : Vec Ideal S8x512 .f32) (b : Fin 8) (r : Fin 512) :
    k1_pay2 (F := Ideal) x0 x1 acc (ix2 b r)
      = min (acc (ix2 b r)) ((Finset.univ : Finset (Fin 512)).fold min ⊤ fun l => tileTerm x0 x1 b r l) := by
  unfold k1_pay2
  simp only [shapeCast_self]
  rw [minimumf_apply, minLast_apply]
  refine congrArg (min _) (congrArg (fun f => (Finset.univ : Finset (Fin 512)).fold min ⊤ f) (funext fun l => ?_))
  rw [subf_apply, addf_apply, broadcastCol_apply, broadcastRow_apply, shapeCast_ab_ab1_apply, shapeCast_ab_a1b_apply,
    sumsq_apply, sumsq_apply, mulf_apply, broadcast_apply, matmul_ix3_apply]
  rfl

end Cert.KernelIdeal.Pay

end
-- ==== Proof.KIInv.lean ====
/-
  What the two calls compute, at the ideal instance. A call walks the grid row tile by row tile, and within a row tile
  column tile by column tile; its scratch keeps, for every row of the row tile, the running minimum of the squared
  distances to the columns seen so far. The minimum over a column tile joins the running minimum by
  min (min over columns < 512·k) (min over tile k) = min over columns < 512·(k+1), so after the eighth column tile the
  row holds the minimum over all 4096 columns, which is what the call writes back.
-/
import proofs.«170943_j75333726372154_1_alg».proof.Proof.KIPieces
import proofs.«170943_j75333726372154_1_alg».proof.Proof.KIBlocks
import proofs.«170943_j75333726372154_1_alg».proof.Proof.Payload
import proofs.«170943_j75333726372154_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer Cert.KernelIdeal.Pay Idealize.ShloMosaic.ValueIdx

/-- A row of squared distances with its row number a natural (⊤ past the array: never read). -/
def rowN (x y : T3.Idx → EReal) (b : Fin 8) (q : ℕ) : Fin 4096 → EReal :=
  fun j => if h : q < 4096 then d2 x y b ⟨q, h⟩ j else ⊤
/-- A column tile's minimum with the tile number a natural. -/
def tileN (f : Fin 4096 → EReal) (k : ℕ) : EReal := if h : k < 8 then tileMin f ⟨k, h⟩ else ⊤
theorem tileN_step (f : Fin 4096 → EReal) (k : ℕ) (hk : k < 8) :
    min ((below k).fold min ⊤ f) (tileN f k) = (below (k + 1)).fold min ⊤ f := by
  unfold tileN; rw [dif_pos hk]; exact fold_below_succ f ⟨k, hk⟩
theorem tileN_first (f : Fin 4096 → EReal) : min ⊤ (tileN f 0) = (below (0 + 1)).fold min ⊤ f := by
  unfold tileN; rw [dif_pos (by norm_num)]; exact fold_below_one f

variable (V : (c : Dev nD) → (b : Ref sig .tc) → Buf (Elt Ideal) ((c : Thread nD τ).loc b))

/-! ## The first call: rows of `main_arg0` against all of `main_arg1` -/

theorem qlt0 (t : Fin cfg0.N) (r : Fin 512) : 512 * (t.val / 8) + r.val < 4096 := by
  have := t.isLt; have := r.isLt; have : cfg0.N = 64 := N_0; omega

/-- The tile's row minimum at row `r` of the point's row block is the minimum over the point's column tile of the row of
    squared distances. -/
theorem tile_fold0 (c : Dev nD) (t : Fin cfg0.N) (b : Fin 8) (r : Fin 512) :
    ((Finset.univ : Finset (Fin 512)).fold min ⊤ fun l => tileTerm (iblk0 V c 0 t) (iblk0 V c 1 t) b r l)
      = tileN (rowN (V c main_arg0) (V c main_arg1) b (512 * (t.val / 8) + r.val)) (t.val % 8) := by
  have hq := qlt0 t r
  have hk : t.val % 8 < 8 := Nat.mod_lt _ (by norm_num)
  unfold tileN; rw [dif_pos hk]; unfold tileMin
  congr 1; funext l
  unfold rowN; rw [dif_pos hq]
  unfold tileTerm d2 sqn dotp
  simp only [iblk0_x V c t, iblk0_y V c t]
  have key : ∀ h1 h2, (⟨512 * (t.val % 8) + l.val, h1⟩ : Fin 4096) = ⟨(⟨t.val % 8, hk⟩ : Fin 8).val * 512 + l.val, h2⟩ :=
    fun _ _ => Fin.ext (by show 512 * (t.val % 8) + l.val = t.val % 8 * 512 + l.val; omega)
  rw [key _ (by have := l.isLt; show t.val % 8 * 512 + l.val < 4096; omega)]

/-- After the body at position `n` = 8·(row tile) + (column tile) the scratch's row `r` holds the minimum of the row of
    squared distances over the column tiles up to this one: by induction on the position, the first column tile
    starting from +∞, every later one updating what the one before left. -/
theorem inv0 (c : Dev nD) : ∀ (n : ℕ) (hn : n < cfg0.N) (b : Fin 8) (r : Fin 512),
    (outsAt0 V c n hn).2 (ix2 b r) = (below (n % 8 + 1)).fold min ⊤ (rowN (V c main_arg0) (V c main_arg1) b (512 * (n / 8) + r.val)) := by
  intro n
  induction n with
  | zero =>
    intro hn b r
    rw [outsAt0_A V c ⟨0, hn⟩ rfl (by show ¬ (0 % 8 = 7); omega)]
    dsimp only
    rw [scratch0_A, pay2_apply, pay1_apply, tile_fold0]
    exact tileN_first _
  | succ n ih =>
    intro hn b r
    have hk : (n + 1) % 8 < 8 := Nat.mod_lt _ (by norm_num)
    by_cases h0 : (n + 1) % 8 = 0
    · rw [outsAt0_A V c ⟨n + 1, hn⟩ h0 (by dsimp only; omega)]
      dsimp only
      rw [scratch0_A, pay2_apply, pay1_apply, tile_fold0]
      dsimp only
      rw [h0]
      exact tileN_first _
    · have hprev := ih (Nat.lt_of_succ_lt hn) b r
      have e1 : (n + 1) / 8 = n / 8 := by omega
      have e2 : (n + 1) % 8 = n % 8 + 1 := by omega
      by_cases h1 : (n + 1) % 8 = 7
      · rw [outsAt0_C V c ⟨n + 1, hn⟩ h0 h1]
        dsimp only
        rw [scratch0_C, pay2_apply, tile_fold0]
        dsimp only
        show min ((outsAt0 V c n _).2 (ix2 b r)) _ = _
        rw [hprev, e1, e2]
        exact tileN_step _ _ (by omega)
      · rw [outsAt0_B V c ⟨n + 1, hn⟩ h0 h1]
        dsimp only
        rw [scratch0_B, pay2_apply, tile_fold0]
        dsimp only
        show min ((outsAt0 V c n _).2 (ix2 b r)) _ = _
        rw [hprev, e1, e2]
        exact tileN_step _ _ (by omega)

/-- At the last column tile the output block receives what the scratch then holds: the minimum over all 4096 columns. -/
theorem out0_last (c : Dev nD) (t : Fin cfg0.N) (h7 : t.val % 8 = 7) (b : Fin 8) (r : Fin 512) :
    (outsAt0 V c t.val t.isLt).1 (ix2 b r) = nearest (V c main_arg0) (V c main_arg1) (ix2 b ⟨512 * (t.val / 8) + r.val, qlt0 t r⟩) := by
  have h0 : ¬ t.val % 8 = 0 := by omega
  have e12 : (outsAt0 V c t.val t.isLt).1 = (outsAt0 V c t.val t.isLt).2 := by
    rw [outsAt0_C V c t h0 h7]; dsimp only; rw [output0_C, scratch0_C]
  rw [e12, inv0 V c t.val t.isLt b r, h7, nearest_ix2, fold_below_eight]
  unfold rowN
  simp only [dif_pos (qlt0 t r)]

/-- So after the call its output array holds, at (b, n), the least squared distance from point n to the other cloud. -/
theorem call0_value (c : Dev nD) : (dat0 V c).arrAt 2 cfg0.N = nearest (V c main_arg0) (V c main_arg1) :=
  arr0_eq V c _ (fun t h7 b r => out0_last V c t h7 b r)

/-! ## The second call: rows of `main_arg1` against all of `main_arg0` -/

theorem qlt1 (t : Fin cfg1.N) (r : Fin 512) : 512 * (t.val / 8) + r.val < 4096 := by
  have := t.isLt; have := r.isLt; have : cfg1.N = 64 := N_1; omega

/-- The tile's row minimum at row `r` of the point's row block is the minimum over the point's column tile of the row of
    squared distances. -/
theorem tile_fold1 (c : Dev nD) (t : Fin cfg1.N) (b : Fin 8) (r : Fin 512) :
    ((Finset.univ : Finset (Fin 512)).fold min ⊤ fun l => tileTerm (iblk1 V c 0 t) (iblk1 V c 1 t) b r l)
      = tileN (rowN (V c main_arg1) (V c main_arg0) b (512 * (t.val / 8) + r.val)) (t.val % 8) := by
  have hq := qlt1 t r
  have hk : t.val % 8 < 8 := Nat.mod_lt _ (by norm_num)
  unfold tileN; rw [dif_pos hk]; unfold tileMin
  congr 1; funext l
  unfold rowN; rw [dif_pos hq]
  unfold tileTerm d2 sqn dotp
  simp only [iblk1_x V c t, iblk1_y V c t]
  have key : ∀ h1 h2, (⟨512 * (t.val % 8) + l.val, h1⟩ : Fin 4096) = ⟨(⟨t.val % 8, hk⟩ : Fin 8).val * 512 + l.val, h2⟩ :=
    fun _ _ => Fin.ext (by show 512 * (t.val % 8) + l.val = t.val % 8 * 512 + l.val; omega)
  rw [key _ (by have := l.isLt; show t.val % 8 * 512 + l.val < 4096; omega)]

/-- After the body at position `n` = 8·(row tile) + (column tile) the scratch's row `r` holds the minimum of the row of
    squared distances over the column tiles up to this one: by induction on the position, the first column tile
    starting from +∞, every later one updating what the one before left. -/
theorem inv1 (c : Dev nD) : ∀ (n : ℕ) (hn : n < cfg1.N) (b : Fin 8) (r : Fin 512),
    (outsAt1 V c n hn).2 (ix2 b r) = (below (n % 8 + 1)).fold min ⊤ (rowN (V c main_arg1) (V c main_arg0) b (512 * (n / 8) + r.val)) := by
  intro n
  induction n with
  | zero =>
    intro hn b r
    rw [outsAt1_A V c ⟨0, hn⟩ rfl (by show ¬ (0 % 8 = 7); omega)]
    dsimp only
    rw [scratch1_A, pay2_apply', pay1_apply', tile_fold1]
    exact tileN_first _
  | succ n ih =>
    intro hn b r
    have hk : (n + 1) % 8 < 8 := Nat.mod_lt _ (by norm_num)
    by_cases h0 : (n + 1) % 8 = 0
    · rw [outsAt1_A V c ⟨n + 1, hn⟩ h0 (by dsimp only; omega)]
      dsimp only
      rw [scratch1_A, pay2_apply', pay1_apply', tile_fold1]
      dsimp only
      rw [h0]
      exact tileN_first _
    · have hprev := ih (Nat.lt_of_succ_lt hn) b r
      have e1 : (n + 1) / 8 = n / 8 := by omega
      have e2 : (n + 1) % 8 = n % 8 + 1 := by omega
      by_cases h1 : (n + 1) % 8 = 7
      · rw [outsAt1_C V c ⟨n + 1, hn⟩ h0 h1]
        dsimp only
        rw [scratch1_C, pay2_apply', tile_fold1]
        dsimp only
        show min ((outsAt1 V c n _).2 (ix2 b r)) _ = _
        rw [hprev, e1, e2]
        exact tileN_step _ _ (by omega)
      · rw [outsAt1_B V c ⟨n + 1, hn⟩ h0 h1]
        dsimp only
        rw [scratch1_B, pay2_apply', tile_fold1]
        dsimp only
        show min ((outsAt1 V c n _).2 (ix2 b r)) _ = _
        rw [hprev, e1, e2]
        exact tileN_step _ _ (by omega)

/-- At the last column tile the output block receives what the scratch then holds: the minimum over all 4096 columns. -/
theorem out1_last (c : Dev nD) (t : Fin cfg1.N) (h7 : t.val % 8 = 7) (b : Fin 8) (r : Fin 512) :
    (outsAt1 V c t.val t.isLt).1 (ix2 b r) = nearest (V c main_arg1) (V c main_arg0) (ix2 b ⟨512 * (t.val / 8) + r.val, qlt1 t r⟩) := by
  have h0 : ¬ t.val % 8 = 0 := by omega
  have e12 : (outsAt1 V c t.val t.isLt).1 = (outsAt1 V c t.val t.isLt).2 := by
    rw [outsAt1_C V c t h0 h7]; dsimp only; rw [output1_C, scratch1_C]
  rw [e12, inv1 V c t.val t.isLt b r, h7, nearest_ix2, fold_below_eight]
  unfold rowN
  simp only [dif_pos (qlt1 t r)]

/-- So after the call its output array holds, at (b, n), the least squared distance from point n to the other cloud. -/
theorem call1_value (c : Dev nD) : (dat1 V c).arrAt 2 cfg1.N = nearest (V c main_arg1) (V c main_arg0) :=
  arr1_eq V c _ (fun t h7 b r => out1_last V c t h7 b r)

end Cert.KernelIdeal.Hand

end
-- ==== Proof.Tail.lean ====
/-
  The two scalar terms both programs end with, each as ONE function of arrays.

  chamTail a b, for a b : [8, 4096]: the mean over the eight batches of the mean over the 4096 points of a, plus the
  same of b — each mean a sum from zero divided by the count (4096, then 8), the two means added.
  regTerm R S t R' S' t': the regularisation term, the sum of all squares of R·R'ᵀ − I (the identity built from two
  iotas and a comparison, broadcast over the eight batches), plus the sum of squares of S − S', plus the sum of squares
  of t − t' (t reshaped from [8, 3, 1] to [8, 3]).

  The shapes and the shape relations the operations take as evidence are restated here, so that this module
  depends on neither program; a relation is a proposition, so any two proofs of it give the same term.
-/
import Idealize.ShloMosaic.PureOps
import Idealize.ShloMosaic.PureOps.Ideal

noncomputable section

open Idealize.ShloMosaic

namespace Cert.Chamfer.Tail

abbrev S8x4096 : Shape := ⟨2, ![8, 4096]⟩
abbrev S8 : Shape := ⟨1, ![8]⟩
abbrev S_ : Shape := ⟨0, ![]⟩
abbrev S8x3x3 : Shape := ⟨3, ![8, 3, 3]⟩
abbrev S8x3 : Shape := ⟨2, ![8, 3]⟩
abbrev S8x3x1 : Shape := ⟨3, ![8, 3, 1]⟩
abbrev S3x3 : Shape := ⟨2, ![3, 3]⟩
abbrev S1x3x3 : Shape := ⟨3, ![1, 3, 3]⟩

theorem h_S_ : 0 < S_.numel := by decide
theorem reducesTo_S8x4096_S8_d1 : S8x4096.ReducesTo [1] S8 := by decide
theorem bcast_S_S8 : S_.BroadcastsInDim S8 (![] : Fin 0 → Fin S8.rank) := by decide
theorem reducesTo_S8_S_d0 : S8.ReducesTo [0] S_ := by decide
theorem shapeCasts_S8x3x1_S8x3 : S8x3x1.ShapeCasts S8x3 := by decide
theorem bcast_S_S3x3 : S_.BroadcastsInDim S3x3 (![] : Fin 0 → Fin S3x3.rank) := by decide
theorem bcast_S3x3_S1x3x3_1_2 : S3x3.BroadcastsInDim S1x3x3 (![1, 2] : Fin 2 → Fin S1x3x3.rank) := by decide
theorem bcast_S1x3x3_S8x3x3_0_1_2 : S1x3x3.BroadcastsInDim S8x3x3 (![0, 1, 2] : Fin 3 → Fin S8x3x3.rank) := by decide
theorem reducesTo_S8x3x3_S_d0_1_2 : S8x3x3.ReducesTo [0, 1, 2] S_ := by decide
theorem reducesTo_S8x3_S_d0_1 : S8x3.ReducesTo [0, 1] S_ := by decide
theorem dot_wf : DotDims.WF S8x3x3 S8x3x3 S8x3x3 [2] [2] [1] [1] [0] [0] := by decide

/-- The batched product R·R'ᵀ: batch axis 0 of both, contracting axis 2 of both. -/
def dot : DotDims S8x3x3 S8x3x3 S8x3x3 where
  lhsContracting := [2]
  rhsContracting := [2]
  lhsNonContracting := [1]
  rhsNonContracting := [1]
  lhsBatch := [0]
  rhsBatch := [0]
  wf := dot_wf

end Cert.Chamfer.Tail

namespace Cert.Chamfer

open Cert.Chamfer.Tail

/-- The mean over batches of the mean over points of a, plus the same of b. -/
def chamTail (a b : FVec Ideal S8x4096 .f32) : FVec Ideal S_ .f32 :=
  addf
    (Host.divf (F := Ideal)
      (Host.reduceAdd (F := Ideal)
        (Host.divf (F := Ideal)
          (Host.reduceAdd (F := Ideal) a (constant (F := Ideal) S_ .f32 0x00000000#32) reducesTo_S8x4096_S8_d1 h_S_)
          (broadcastInDim S8 ![] bcast_S_S8 (constant (F := Ideal) S_ .f32 0x45800000#32)))
        (constant (F := Ideal) S_ .f32 0x00000000#32) reducesTo_S8_S_d0 h_S_)
      (constant (F := Ideal) S_ .f32 0x41000000#32))
    (Host.divf (F := Ideal)
      (Host.reduceAdd (F := Ideal)
        (Host.divf (F := Ideal)
          (Host.reduceAdd (F := Ideal) b (constant (F := Ideal) S_ .f32 0x00000000#32) reducesTo_S8x4096_S8_d1 h_S_)
          (broadcastInDim S8 ![] bcast_S_S8 (constant (F := Ideal) S_ .f32 0x45800000#32)))
        (constant (F := Ideal) S_ .f32 0x00000000#32) reducesTo_S8_S_d0 h_S_)
      (constant (F := Ideal) S_ .f32 0x41000000#32))

/-- The 3 × 3 identity as floats (row index equal to column index), once per batch. -/
def eye8 : FVec Ideal S8x3x3 .f32 :=
  broadcastInDim S8x3x3 ![0, 1, 2] bcast_S1x3x3_S8x3x3_0_1_2
    (broadcastInDim S1x3x3 ![1, 2] bcast_S3x3_S1x3x3_1_2
      (uitofp (F := Ideal) .f32
        (cmpi .eq (addi (iotaInDim S3x3 32 0) (broadcastInDim S3x3 ![] bcast_S_S3x3 (constantI S_ 32 0#32))) (iotaInDim S3x3 32 1))))

/-- The regularisation term: the three sums of squares, added. -/
def regTerm (a2 : FVec Ideal S8x3x3 .f32) (a3 : FVec Ideal S8x3 .f32) (a4 : FVec Ideal S8x3x1 .f32)
    (a5 : FVec Ideal S8x3x3 .f32) (a6 a7 : FVec Ideal S8x3 .f32) : FVec Ideal S_ .f32 :=
  addf
    (addf
      (Host.reduceAdd (F := Ideal)
        (mulf (subf (Host.dotGeneral (F := Ideal) dot none a2 a5) eye8) (subf (Host.dotGeneral (F := Ideal) dot none a2 a5) eye8))
        (constant (F := Ideal) S_ .f32 0x00000000#32) reducesTo_S8x3x3_S_d0_1_2 h_S_)
      (Host.reduceAdd (F := Ideal) (mulf (subf a3 a6) (subf a3 a6))
        (constant (F := Ideal) S_ .f32 0x00000000#32) reducesTo_S8x3_S_d0_1 h_S_))
    (Host.reduceAdd (F := Ideal)
      (mulf (subf (shapeCast _ a4 shapeCasts_S8x3x1_S8x3) a7) (subf (shapeCast _ a4 shapeCasts_S8x3x1_S8x3) a7))
      (constant (F := Ideal) S_ .f32 0x00000000#32) reducesTo_S8x3_S_d0_1 h_S_)

end Cert.Chamfer

end
-- ==== Proof.KIValue.lean ====
/-
  The idealized kernel program's result. The operations after the two calls are the same mean-of-means and final sum
  the reference applies, here to the two calls' output arrays; the operations before them give the regularisation term
  of the small arguments. Each call's output array is the nearest-neighbour array of its two clouds. So the program ends
  with its result at the shared tail of (nearest x y, nearest y x) plus the regularisation term, its arguments unchanged.
-/
import proofs.«170943_j75333726372154_1_alg».proof.Proof.KIEnds
import proofs.«170943_j75333726372154_1_alg».proof.Proof.KIInv
import proofs.«170943_j75333726372154_1_alg».proof.Proof.Tail
import proofs.«170943_j75333726372154_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer

variable (m : (ℓ : Loc nD τ sig) → Buf (Elt Ideal) ℓ) (ρ : Dev nD → PrngReg)

set_option maxHeartbeats 4000000 in
/-- The result buffer after the last host stretch: the regularisation term plus the tail of the two output arrays. -/
theorem result_tail (c : Dev nD) :
    W4 (F := Ideal) m c main_v34 = addf (W3 m c main_v20) (chamTail (W3 m c main_v21) (W3 m c main_v22)) := by
  show StableHlo.after hostOps2 (W3 m c) (Proc.devRef .tc main_v34) = _
  after_results_simp
  rfl

set_option maxHeartbeats 4000000 in
/-- The regularisation term after the first host stretch, from the launch memory. -/
theorem reg_value (c : Dev nD) :
    W1 (F := Ideal) m c main_v20 = regTerm (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps0 (W0 m c) (Proc.devRef .tc main_v20) = _
  after_results_simp
  rfl

/-- The result at the last boundary, in terms of the launch memory alone. -/
theorem result_value (c : Dev nD) : W4 (F := Ideal) m c main_v34 = addf (regTerm (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (chamTail (nearest (m ((c : Thread nD τ).loc main_arg0)) (m ((c : Thread nD τ).loc main_arg1))) (nearest (m ((c : Thread nD τ).loc main_arg1)) (m ((c : Thread nD τ).loc main_arg0)))) := by
  rw [result_tail, W3_v20, reg_value, W3_v21, W3_v22, call0_value (V1 m) c, call1_value (V2 m) c,
    V1_main_arg0, V1_main_arg1, V2_main_arg0, V2_main_arg1]

/-- The idealized kernel program runs to its end with its result at that term and its arguments as launched. -/
theorem kernel_run : θ_run defs (onTc (τ := τ) (main (F := Ideal))) ⟨m, fun _ => 0, ρ⟩ (fun r => ∀ c : Dev nD,
      r.2.mem ((c.tc : Thread nD τ).loc main_v34) = addf (regTerm (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (chamTail (nearest (m ((c.tc : Thread nD τ).loc main_arg0)) (m ((c.tc : Thread nD τ).loc main_arg1))) (nearest (m ((c.tc : Thread nD τ).loc main_arg1)) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v34 (by decide))).trans (result_value m c),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c)⟩) (run_all m ρ)

end Cert.KernelIdeal.Hand

end
-- ==== Proof.RefValue.lean ====
/-
  The reference's result as a function of its eight arguments, at the ideal values.

  The reference forms the full [8, 4096, 4096] array of squared distances
      D[b, n, m] = (|x_n|² + |y_m|²) − 2 · ⟨x_n, y_m⟩
  (two row sums of squares broadcast along the other point axis, a batched product, a scaling by two, a difference),
  takes its minimum over m (axis 2) and over n (axis 1), both from +∞, and feeds the two [8, 4096] arrays to the
  mean-of-means tail; the regularisation term is added last. Read at an index, D is the specification's d2, so the
  two minima are nearest x y and nearest y x (the second by d2's symmetry), and the whole result is
      regTerm … + chamTail (nearest x y) (nearest y x).
  The array D is never opened as a whole: each minimum is read over an arbitrary array first, and D only at one index.
-/
import proofs.«170943_j75333726372154_1_alg».proof.Defs
import proofs.«170943_j75333726372154_1_alg».proof.Proof.Gen.ReferenceIdeal.Read
import proofs.«170943_j75333726372154_1_alg».proof.Proof.Gen.Pre_finite_inputs
import proofs.«170943_j75333726372154_1_alg».proof.Proof.Spec
import proofs.«170943_j75333726372154_1_alg».proof.Proof.Tail
import Idealize.ShloMosaic.Lib.IdealHost

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Chamfer

/-! ## A minimum over one point axis of an arbitrary [8, 4096, 4096] array -/

/-- The minimum from +∞ over axis 2, at (b, n): the fold of min over m of the array at (b, n, m). -/
theorem min_axis2 (v : FVec Ideal S8x4096x4096 .f32) (b : Fin 8) (n : Fin 4096) :
    Host.reduce (FloatOps.minimumf (F := Ideal) (φ := .f32)) v (constant (F := Ideal) S_ .f32 0x7F800000#32)
        reducesTo_S8x4096x4096_S8x4096_d2 h_S_ (ix2 b n)
      = (Finset.univ : Finset (Fin 4096)).fold min ⊤ fun m => v (ix3 b n m) := by
  rw [Host.reduce_eq_fold_single (FloatOps.minimumf (F := Ideal) (φ := .f32)) v _ reducesTo_S8x4096x4096_S8x4096_d2
    (by decide) h_S_]
  have e : (constant (F := Ideal) S_ .f32 0x7F800000#32) (Shape.Idx.first h_S_) = (⊤ : EReal) := ofBits_inf_f32
  rw [e]
  refine Finset.fold_congr fun m _ => ?_
  exact congrArg v (funext fun a => Fin.ext (by match a with | ⟨0, _⟩ => rfl | ⟨1, _⟩ => rfl | ⟨2, _⟩ => rfl))

/-- The minimum from +∞ over axis 1, at (b, m): the fold of min over n of the array at (b, n, m). -/
theorem min_axis1 (v : FVec Ideal S8x4096x4096 .f32) (b : Fin 8) (m : Fin 4096) :
    Host.reduce (FloatOps.minimumf (F := Ideal) (φ := .f32)) v (constant (F := Ideal) S_ .f32 0x7F800000#32)
        reducesTo_S8x4096x4096_S8x4096_d1 h_S_ (ix2 b m)
      = (Finset.univ : Finset (Fin 4096)).fold min ⊤ fun n => v (ix3 b n m) := by
  rw [Host.reduce_eq_fold_single (FloatOps.minimumf (F := Ideal) (φ := .f32)) v _ reducesTo_S8x4096x4096_S8x4096_d1
    (by decide) h_S_]
  have e : (constant (F := Ideal) S_ .f32 0x7F800000#32) (Shape.Idx.first h_S_) = (⊤ : EReal) := ofBits_inf_f32
  rw [e]
  refine Finset.fold_congr fun n _ => ?_
  exact congrArg v (funext fun a => Fin.ext (by match a with | ⟨0, _⟩ => rfl | ⟨1, _⟩ => rfl | ⟨2, _⟩ => rfl))

/-! ## The array of squared distances at an index -/

/-- The reference's [8, 4096, 4096] array at (b, n, m) is the specification's squared distance: the two row sums of
    squares read through their broadcasts at (b, n) and (b, m), the batched product at (b, n, m) as the sum over the
    three coordinates, the zero the sums start from dropped. -/
theorem dist_apply (x0 x1 : (⟨S8x4096x3, .f32⟩ : BufTy).Contents (Elt Ideal)) (b : Fin 8) (n m : Fin 4096) :
    val_main_v33 (F := Ideal) x0 x1 (ix3 b n m) = d2 x0 x1 b n m := by
  have e1 : ∀ k : Fin 3, idx_main_v22 (idx_main_v26 (idx_main_v28 (ix3 b n m))) k = ix3 b n k := fun k =>
    funext fun a => Fin.ext (by match a with | ⟨0, _⟩ => rfl | ⟨1, _⟩ => rfl | ⟨2, _⟩ => rfl)
  have e2 : ∀ k : Fin 3, idx_main_v24 (idx_main_v27 (idx_main_v29 (ix3 b n m))) k = ix3 b m k := fun k =>
    funext fun a => Fin.ext (by match a with | ⟨0, _⟩ => rfl | ⟨1, _⟩ => rfl | ⟨2, _⟩ => rfl)
  have e3 : ∀ k : Fin 3, lidx_main_v25 (ix3 b n m) k = ix3 b n k := fun k =>
    funext fun a => Fin.ext (by match a with | ⟨0, _⟩ => rfl | ⟨1, _⟩ => rfl | ⟨2, _⟩ => rfl)
  have e4 : ∀ k : Fin 3, ridx_main_v25 (ix3 b n m) k = ix3 b m k := fun k =>
    funext fun a => Fin.ext (by match a with | ⟨0, _⟩ => rfl | ⟨1, _⟩ => rfl | ⟨2, _⟩ => rfl)
  rw [val_main_v33_apply, val_main_v30_apply, val_main_v28_apply, val_main_v26_apply, val_main_v22_apply,
    val_main_v29_apply, val_main_v27_apply, val_main_v24_apply, val_main_v32_apply, val_main_v31_apply,
    val_main_v25_apply]
  simp only [e1, e2, e3, e4, val_main_v21_apply, val_main_v23_apply, val_main_cst_2_apply, val_main_cst_3_apply,
    val_main_cst_4_apply, Ideal.ofBits_def, Ideal.mulf_def, Ideal.addf_def, Ideal.subf_def, Cert.Chamfer.ofBits_zero_f32,
    zero_add, d2, sqn, dotp]

/-! ## The two minima are the specification's -/

/-- The minimum over the second cloud's points: nearest x y. -/
theorem ref_v34 (x0 x1 : (⟨S8x4096x3, .f32⟩ : BufTy).Contents (Elt Ideal)) :
    val_main_v34 (F := Ideal) x0 x1 = nearest x0 x1 := by
  funext j
  obtain ⟨b, n, rfl⟩ : ∃ (b : Fin 8) (n : Fin 4096), j = ix2 b n := ⟨j 0, j 1, eq_ix2 j⟩
  rw [nearest_ix2]
  unfold val_main_v34 val_main_cst_5
  generalize hv : val_main_v33 (F := Ideal) x0 x1 = v
  refine (min_axis2 v b n).trans ?_
  subst hv
  exact Finset.fold_congr fun m _ => dist_apply x0 x1 b n m

/-- The minimum over the first cloud's points: nearest y x, by the symmetry of the squared distance. -/
theorem ref_v38 (x0 x1 : (⟨S8x4096x3, .f32⟩ : BufTy).Contents (Elt Ideal)) :
    val_main_v38 (F := Ideal) x0 x1 = nearest x1 x0 := by
  funext j
  obtain ⟨b, m, rfl⟩ : ∃ (b : Fin 8) (m : Fin 4096), j = ix2 b m := ⟨j 0, j 1, eq_ix2 j⟩
  rw [nearest_swap_ix2]
  unfold val_main_v38 val_main_cst_8
  generalize hv : val_main_v33 (F := Ideal) x0 x1 = v
  refine (min_axis1 v b m).trans ?_
  subst hv
  exact Finset.fold_congr fun n _ => dist_apply x0 x1 b n m

/-! ## The whole result -/

/-- The operations after the two minima are the mean-of-means tail of the two [8, 4096] arrays. -/
theorem tail_eq (x0 x1 : (⟨S8x4096x3, .f32⟩ : BufTy).Contents (Elt Ideal)) :
    val_main_v46 (F := Ideal) x0 x1 = chamTail (val_main_v34 (F := Ideal) x0 x1) (val_main_v38 (F := Ideal) x0 x1) := rfl

/-- The operations on the six small arguments are the regularisation term. -/
theorem reg_eq (x2 : (⟨S8x3x3, .f32⟩ : BufTy).Contents (Elt Ideal)) (x3 : (⟨S8x3, .f32⟩ : BufTy).Contents (Elt Ideal))
    (x4 : (⟨S8x3x1, .f32⟩ : BufTy).Contents (Elt Ideal)) (x5 : (⟨S8x3x3, .f32⟩ : BufTy).Contents (Elt Ideal))
    (x6 x7 : (⟨S8x3, .f32⟩ : BufTy).Contents (Elt Ideal)) :
    val_main_v20 (F := Ideal) x2 x3 x4 x5 x6 x7 = regTerm x2 x3 x4 x5 x6 x7 := rfl

/-- THE REFERENCE'S RESULT: the regularisation term plus the tail of the two nearest-neighbour minima. -/
theorem ref_result (x0 x1 : (⟨S8x4096x3, .f32⟩ : BufTy).Contents (Elt Ideal)) (x2 : (⟨S8x3x3, .f32⟩ : BufTy).Contents (Elt Ideal))
    (x3 : (⟨S8x3, .f32⟩ : BufTy).Contents (Elt Ideal)) (x4 : (⟨S8x3x1, .f32⟩ : BufTy).Contents (Elt Ideal))
    (x5 : (⟨S8x3x3, .f32⟩ : BufTy).Contents (Elt Ideal)) (x6 x7 : (⟨S8x3, .f32⟩ : BufTy).Contents (Elt Ideal)) :
    val_main_v47 (F := Ideal) x0 x1 x2 x3 x4 x5 x6 x7
      = addf (regTerm x2 x3 x4 x5 x6 x7) (chamTail (nearest x0 x1) (nearest x1 x0)) := by
  unfold val_main_v47
  rw [reg_eq, tail_eq, ref_v34, ref_v38]

/-- The same of the run's own term, the arguments read from the launch memory. -/
theorem ref_res (m : (ℓ : Loc nD τ sig) → Buf (Elt Ideal) ℓ) (c : Dev nD) :
    Cert.ReferenceIdeal.Value.res_main_v47 (F := Ideal) m c
      = addf (regTerm (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (chamTail (nearest (m ((c.tc : Thread nD τ).loc main_arg0)) (m ((c.tc : Thread nD τ).loc main_arg1))) (nearest (m ((c.tc : Thread nD τ).loc main_arg1)) (m ((c.tc : Thread nD τ).loc main_arg0)))) :=
  (val_main_v47_eq m c).trans (ref_result _ _ _ _ _ _ _ _)

/-- THE REFERENCE'S RUN with its result stated by the specification: every weakly fair execution terminates with the
    result at the regularisation term plus the tail of the two minima, of the launch arguments, which end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47)
          = addf (regTerm (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (chamTail (nearest (m ((c.tc : Thread nD τ).loc main_arg0)) (m ((c.tc : Thread nD τ).loc main_arg1))) (nearest (m ((c.tc : Thread nD τ).loc main_arg1)) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (ref_res m c), (h c).2⟩)
    (Cert.ReferenceIdeal.Value.run (F := Ideal) m ρ)

/-- The reference runs to the end and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  A chamfer loss between two point clouds x, y : [8, 4096, 3] plus a regularisation term of six small arguments.
  With d²(b, n, m) = (Σ_d x[b,n,d]² + Σ_d y[b,m,d]²) − 2·Σ_d x[b,n,d]·y[b,m,d], the reference takes, from ONE array d²,
  the minimum over m for every (b, n) and the minimum over n for every (b, m), averages each over the points and over the
  batch, and adds the two averages to the regularisation term. The kernel program computes the regularisation term by
  the same host operations, then calls one tiled nearest-neighbour kernel twice — on (x, y) and on (y, x) — and applies
  the same averaging to the two arrays of minima.

  Each call walks an 8 × 8 grid of (row tile, column tile); a scratch buffer keeps, per row, the running minimum over
  the column tiles seen so far (+∞ before the first), and the row tile's result is written back after the last column
  tile. Over the extended reals the running minimum over eight tiles of 512 columns is the minimum over all 4096
  columns, so the first call's array is n ↦ min_m d²(x, y)(b, n, m). The second call's array is
  m ↦ min_n [(Σ y² + Σ x²) − 2·Σ y·x], which is min_n d²(x, y)(b, n, m) because + and · commute on the extended reals
  (no finiteness is needed: nothing is cancelled or distributed). The two programs therefore end with equal results.

  The frames: the reference is a straight line of host operations; each kernel program is four segments (host
  operations, the two calls, host operations), each call run point by point with the scratch's contents carried in the
  invariant between points, and no segment writes an argument array. The idealization rewrote nothing, so the word-level
  program is the same text and its frame is the same proof at the other instance; `preserves` has no conjunct.
-/
import proofs.«170943_j75333726372154_1_alg».proof.Defs
import proofs.«170943_j75333726372154_1_alg».proof.Proof.Gen.Kernel
import proofs.«170943_j75333726372154_1_alg».proof.Proof.Gen.KernelIdeal
import proofs.«170943_j75333726372154_1_alg».proof.Proof.Gen.ReferenceIdeal
import proofs.«170943_j75333726372154_1_alg».proof.Proof.Gen.Pre_finite_inputs
import proofs.«170943_j75333726372154_1_alg».proof.Proof.KEnds
import proofs.«170943_j75333726372154_1_alg».proof.Proof.KIValue
import proofs.«170943_j75333726372154_1_alg».proof.Proof.RefValue
import Idealize.ShloMosaic.Adequacy
import Idealize.ShloMosaic.Init

noncomputable section

namespace Cert.Proof

open Idealize.ShloMosaic Idealize.SL.Sem

/-- The word-level program runs to its end and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- Both idealized programs, from memories agreeing on the arguments, end with the regularisation term plus the
    averaged nearest-neighbour distances in both directions: one term of the arguments. -/
theorem algebraic : Cert.algebraic_KernelIdeal_ReferenceIdeal := by
  intro m ρ m' ρ' _ hagree
  refine ⟨fun c => addf (Cert.Chamfer.regTerm (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.Chamfer.chamTail (Cert.Chamfer.nearest (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.Chamfer.nearest (m ((c.tc : Thread Cert.KernelIdeal.nD Cert.KernelIdeal.τ).loc Cert.KernelIdeal.main_arg1)) (m ((c.tc : Thread Cert.KernelIdeal.nD Cert.KernelIdeal.τ).loc Cert.KernelIdeal.main_arg0)))), Cert.KernelIdeal.Hand.kernel_run m ρ, ?_⟩
  refine (θ_run Cert.ReferenceIdeal.defs _ _).mono (fun r h c => ⟨(h c).1.trans ?_, (h c).2⟩)
    (Cert.ReferenceIdeal.RefValue.ref_run m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
